-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x128 .f32) (main_arg6 : FVec F S40x128 .f32) (main_arg7 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S40x128 .f32 := Host.absf main_arg6
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S128x512 .f32) (main_arg3 : FVec F S128 .f32) (main_arg4 : FVec F S3x128x128 .f32) (main_arg5 : FVec F S3x128 .f32) (main_arg6 : FVec F S40x128 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512x128 : Shape := ⟨2, ![512, 128]⟩
abbrev S1x128 : Shape := ⟨2, ![1, 128]⟩
abbrev S100000x128 : Shape := ⟨2, ![100000, 128]⟩
abbrev S2000x512 : Shape := ⟨2, ![2000, 512]⟩
abbrev S2000x128 : Shape := ⟨2, ![2000, 128]⟩
abbrev S1x128x128 : Shape := ⟨3, ![1, 128, 128]⟩
abbrev S128x128 : Shape := ⟨2, ![128, 128]⟩
abbrev S1700000x128 : Shape := ⟨2, ![1700000, 128]⟩
abbrev S128x40 : Shape := ⟨2, ![128, 40]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 116
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S128x512, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S40x128, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S512x128, .f32⟩
  | .hbm, ⟨42, _⟩ => ⟨S1x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128x128, .f32⟩
  | .hbm, ⟨88, _⟩ => ⟨S128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x128, .f32⟩
  | .hbm, ⟨103, _⟩ => ⟨S1700000x1, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S128x40, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S1x40, .f32⟩
  | .hbm, ⟨115, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S128x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_10 : Ref sig .tc := ⟨.hbm, 94, rfl⟩
abbrev main_v74 : Ref sig .tc := ⟨.hbm, 95, rfl⟩
abbrev main_v75 : Ref sig .tc := ⟨.hbm, 96, rfl⟩
abbrev main_c_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x512_S512x128_1_0 : S128x512.Transposes [1, 0] S512x128
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_1_0_0 : S3x128x128.Slices ![1, 0, 0] S1x128x128
  slices_S3x128_S1x128_0_0 : S3x128.Slices ![0, 0] S1x128
  shapeCasts_S1x128_S128 : S1x128.ShapeCasts S128
  slices_S3x128x128_S1x128x128_2_0_0 : S3x128x128.Slices ![2, 0, 0] S1x128x128
  slices_S3x128_S1x128_1_0 : S3x128.Slices ![1, 0] S1x128
  transposes_S40x128_S128x40_1_0 : S40x128.Transposes [1, 0] S128x40
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x40.size a ≤ S100000x40.size a
  hwx4_4 : ∀ i : grid4.Coords, EltTy.bits .f32 = 32 ∨ (Rect.block (s := S100000x40) S2000x40.size (cc4_transform_4 i) (hinb4_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v86) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S2000x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512x128 : Shape := ⟨2, ![512, 128]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 138
  | .vmem => 0
  | .smem => 0
  | _ => 0

abbrev hbmTy0_0 (i : Nat) : BufTy := match i % 128 with
  | 0 => ⟨S100000x512, .f32⟩
  | 1 => ⟨S2x1600000, .i32⟩
  | 2 => ⟨S128x512, .f32⟩
  | 3 => ⟨S128, .f32⟩
  | 4 => ⟨S3x128x128, .f32⟩
  | 5 => ⟨S3x128, .f32⟩
  | 6 => ⟨S40x128, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S512x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S1x128, .f32⟩
  | 52 => ⟨S128, .f32⟩
  | 53 => ⟨S128x128, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S128x128, .f32⟩
  | 82 => ⟨S100000x128, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x128, .f32⟩
  | 92 => ⟨S1700000x1, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S128x128, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x1, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x512, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S128x40, .f32⟩
  | 6 => ⟨S100000x40, .f32⟩
  | 7 => ⟨S1x40, .f32⟩
  | 8 => ⟨S100000x40, .f32⟩
  | 9 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_7 : Ref sig .tc := ⟨.hbm, 83, rfl⟩
abbrev main_v62 : Ref sig .tc := ⟨.hbm, 84, rfl⟩
abbrev main_v63 : Ref sig .tc := ⟨.hbm, 85, rfl⟩
abbrev main_c_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call2_cst : Ref sig .tc := ⟨.hbm, 102, rfl⟩
abbrev main_call2_v0 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_10 : Ref sig .tc := ⟨.hbm, 111, rfl⟩
abbrev main_v85 : Ref sig .tc := ⟨.hbm, 112, rfl⟩
abbrev main_v86 : Ref sig .tc := ⟨.hbm, 113, rfl⟩
abbrev main_c_11 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call3_cst : Ref sig .tc := ⟨.hbm, 130, rfl⟩
abbrev main_call3_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x512_S512x128_1_0 : S128x512.Transposes [1, 0] S512x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  bcast_S1700000x1_S1700000x128_0_1 : S1700000x1.BroadcastsInDim S1700000x128 (![0, 1] : Fin 2 → Fin S1700000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run with its result named. The program is ten segments: five stretches of host operations and
  five grid regions. The contents of every buffer at each segment boundary are a fold through the program: a stretch
  applies its operations, a region leaves each of its arrays at what its write-backs make of it and everything else
  as it was. Every weakly fair execution terminates with every buffer at the last boundary's contents; in particular
  the result buffer holds what the last region's write-backs leave, and the arguments are as launched.
-/
import proofs.«127997_j10531259810642_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.LibDenseLayers.lean ====
/-
  Dense layers read as functions of whole matrices over the extended reals, for any extents.

  `prod x w` at `(r, e)` is the finite sum over the contracted coordinate `j` of `x (r, j) · w (j, e)`; `addRow h b` adds
  entry `e` of the one-row matrix `b` to column `e` of every row; `relu h` is the entrywise maximum with the zero word.
  Three compositions are named, each with its value at an entry: `relu (x · w + b)`, `relu (a + b) · w` and
  `relu (a + b) · w + c`. Sums and products of extended reals are commutative and associative, so a product computed
  tile by tile, in any order, is this same sum, and nothing here needs the entries to be finite. Two layout facts used
  when a kernel body is read at an entry close the file: a one-row matrix cast to its own shape and spread over `a`
  rows reads the row's entry, and the offset vector of a block stored whole is zero.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibDenseLayers

open Idealize.ShloMosaic Idealize.ShloMosaic.ValueIdx

/-- An `a × b` matrix of extended reals. -/
abbrev Mat (a b : ℕ) := FVec Ideal ⟨2, ![a, b]⟩ .f32

/-- The row coordinate of a matrix index, typed by the extent itself. -/
abbrev rowOf {a b : ℕ} (i : (⟨2, ![a, b]⟩ : Shape).Idx) : Fin a := ⟨(i 0).val, (i 0).isLt⟩
/-- The column coordinate of a matrix index, typed by the extent itself. -/
abbrev colOf {a b : ℕ} (i : (⟨2, ![a, b]⟩ : Shape).Idx) : Fin b := ⟨(i 1).val, (i 1).isLt⟩

/-- The matrix product: entry `(r, e)` is `∑ⱼ x (r, j) · w (j, e)`. -/
def prod {n k m : ℕ} (x : Mat n k) (w : Mat k m) : Mat n m :=
  fun i => ∑ j : Fin k, x (ix2 (rowOf i) j) * w (ix2 j (colOf i))

/-- A one-row matrix added to every row. -/
def addRow {n m : ℕ} (h : Mat n m) (b : Mat 1 m) : Mat n m :=
  fun i => h i + b (ix2 (0 : Fin 1) (colOf i))

/-- Rectification: the entrywise maximum with the zero word. -/
def relu {n m : ℕ} (h : Mat n m) : Mat n m :=
  fun i => max (h i) (Ideal.ofBits .f32 0x00000000#32)

theorem prod_apply {n k m : ℕ} (x : Mat n k) (w : Mat k m) (r : Fin n) (e : Fin m) :
    prod x w (ix2 r e) = ∑ j : Fin k, x (ix2 r j) * w (ix2 j e) := rfl

theorem addRow_apply {n m : ℕ} (h : Mat n m) (b : Mat 1 m) (r : Fin n) (e : Fin m) :
    addRow h b (ix2 r e) = h (ix2 r e) + b (ix2 (0 : Fin 1) e) := rfl

theorem relu_apply {n m : ℕ} (h : Mat n m) (r : Fin n) (e : Fin m) :
    relu h (ix2 r e) = max (h (ix2 r e)) (Ideal.ofBits .f32 0x00000000#32) := rfl

/-- The input layer: `relu (x · w + b)`. -/
def layerIn {n k m : ℕ} (x : Mat n k) (w : Mat k m) (b : Mat 1 m) : Mat n m := relu (addRow (prod x w) b)

/-- A hidden layer after an aggregation: `relu (a + b) · w`. -/
def layerHidden {n k m : ℕ} (a : Mat n k) (b : Mat 1 k) (w : Mat k m) : Mat n m := prod (relu (addRow a b)) w

/-- The output layer after the last aggregation: `relu (a + b) · w + c`. -/
def layerOut {n k m : ℕ} (a : Mat n k) (b : Mat 1 k) (w : Mat k m) (c : Mat 1 m) : Mat n m :=
  addRow (prod (relu (addRow a b)) w) c

theorem layerIn_apply {n k m : ℕ} (x : Mat n k) (w : Mat k m) (b : Mat 1 m) (r : Fin n) (e : Fin m) :
    layerIn x w b (ix2 r e)
      = max ((∑ j : Fin k, x (ix2 r j) * w (ix2 j e)) + b (ix2 (0 : Fin 1) e)) (Ideal.ofBits .f32 0x00000000#32) := rfl

theorem layerHidden_apply {n k m : ℕ} (a : Mat n k) (b : Mat 1 k) (w : Mat k m) (r : Fin n) (e : Fin m) :
    layerHidden a b w (ix2 r e)
      = ∑ j : Fin k, max (a (ix2 r j) + b (ix2 (0 : Fin 1) j)) (Ideal.ofBits .f32 0x00000000#32) * w (ix2 j e) := rfl

theorem layerOut_apply {n k m : ℕ} (a : Mat n k) (b : Mat 1 k) (w : Mat k m) (c : Mat 1 m) (r : Fin n) (e : Fin m) :
    layerOut a b w c (ix2 r e)
      = (∑ j : Fin k, max (a (ix2 r j) + b (ix2 (0 : Fin 1) j)) (Ideal.ofBits .f32 0x00000000#32) * w (ix2 j e))
        + c (ix2 (0 : Fin 1) e) := rfl

/-- A one-row matrix spread over `a` rows, after a cast to its own shape, reads the row's entry. -/
theorem spreadRow_apply {a b : ℕ} {φ : FTy} (v : FVec Ideal ⟨2, ![1, b]⟩ φ)
    (hc : (⟨2, ![1, b]⟩ : Shape).ShapeCasts ⟨2, ![1, b]⟩) (hb : (⟨2, ![1, b]⟩ : Shape).Broadcasts ⟨2, ![a, b]⟩)
    (p : Fin a) (e : Fin b) :
    broadcastTo ⟨2, ![a, b]⟩ (shapeCast ⟨2, ![1, b]⟩ v hc) hb (ix2 p e) = v (ix2 (0 : Fin 1) e) := by
  rw [broadcastTo_1b_ab_apply, shapeCast_self]

/-- The offset vector of a block stored whole. -/
theorem zero_offsets : (![0, 0] : Fin 2 → Nat) = fun _ => 0 := funext fun a => by fin_cases a <;> rfl

end Cert.LibDenseLayers

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.KernelBody.lean ====
/-
  What each of the five kernel bodies stores, read at one entry of its block, over the extended reals.

  Every body loads a block of 2000 rows, the whole weight matrix and the one-row biases, and stores one block of 2000
  rows. Changes of float format are the identity on extended reals and a product into a zero block is the plain finite
  sum, so each stored entry is the corresponding dense layer (Proof/LibDenseLayers.lean) of the loaded blocks.
-/
import proofs.«127997_j10531259810642_1_alg».proof.Proof.Gen.KernelIdeal.Skeleton
import proofs.«127997_j10531259810642_1_alg».proof.Proof.LibDenseLayers
import proofs.«127997_j10531259810642_1_alg».proof.Proof.LibPlainDot

noncomputable section

namespace Cert.KernelIdeal.Body

open Cert.KernelIdeal Cert.KernelIdeal.Gen Idealize.ShloMosaic Idealize.ShloMosaic.ValueIdx Cert.LibDenseLayers

/-- The product record of dotIn: it contracts the left operand's columns against the right operand's rows. -/
abbrev dotIn := dot_S2000x512_S512x128_S2000x128_1_0_0_1_n_n
theorem dotIn_l0 (i : S2000x128.Idx) (q : dotIn.contr.Idx) : (dotIn.lhsIdx i q 0).val = (i 0).val := by
  unfold DotDims.lhsIdx
  rw [dif_neg (show ¬(0 : Fin S2000x512.rank) ∈ dotIn.lhsBatch by decide), dif_pos (show (0 : Fin S2000x512.rank) ∈ dotIn.lhsNonContracting by decide)]
  rfl
theorem dotIn_l1 (i : S2000x128.Idx) (q : dotIn.contr.Idx) : (dotIn.lhsIdx i q 1).val = (q ⟨0, by decide⟩).val :=
  dotIn.lhsIdx_val_of_single rfl i q
theorem dotIn_r0 (i : S2000x128.Idx) (q : dotIn.contr.Idx) : (dotIn.rhsIdx i q 0).val = (q ⟨0, by decide⟩).val :=
  dotIn.rhsIdx_val_of_single rfl i q
theorem dotIn_r1 (i : S2000x128.Idx) (q : dotIn.contr.Idx) : (dotIn.rhsIdx i q 1).val = (i 1).val := by
  unfold DotDims.rhsIdx
  rw [dif_neg (show ¬(1 : Fin S512x128.rank) ∈ dotIn.rhsBatch by decide), dif_pos (show (1 : Fin S512x128.rank) ∈ dotIn.rhsNonContracting by decide)]
  rfl

/-- The product record of dotHid: it contracts the left operand's columns against the right operand's rows. -/
abbrev dotHid := dot_S2000x128_S128x128_S2000x128_1_0_0_1_n_n
theorem dotHid_l0 (i : S2000x128.Idx) (q : dotHid.contr.Idx) : (dotHid.lhsIdx i q 0).val = (i 0).val := by
  unfold DotDims.lhsIdx
  rw [dif_neg (show ¬(0 : Fin S2000x128.rank) ∈ dotHid.lhsBatch by decide), dif_pos (show (0 : Fin S2000x128.rank) ∈ dotHid.lhsNonContracting by decide)]
  rfl
theorem dotHid_l1 (i : S2000x128.Idx) (q : dotHid.contr.Idx) : (dotHid.lhsIdx i q 1).val = (q ⟨0, by decide⟩).val :=
  dotHid.lhsIdx_val_of_single rfl i q
theorem dotHid_r0 (i : S2000x128.Idx) (q : dotHid.contr.Idx) : (dotHid.rhsIdx i q 0).val = (q ⟨0, by decide⟩).val :=
  dotHid.rhsIdx_val_of_single rfl i q
theorem dotHid_r1 (i : S2000x128.Idx) (q : dotHid.contr.Idx) : (dotHid.rhsIdx i q 1).val = (i 1).val := by
  unfold DotDims.rhsIdx
  rw [dif_neg (show ¬(1 : Fin S128x128.rank) ∈ dotHid.rhsBatch by decide), dif_pos (show (1 : Fin S128x128.rank) ∈ dotHid.rhsNonContracting by decide)]
  rfl

/-- The product record of dotOut: it contracts the left operand's columns against the right operand's rows. -/
abbrev dotOut := dot_S2000x128_S128x40_S2000x40_1_0_0_1_n_n
theorem dotOut_l0 (i : S2000x40.Idx) (q : dotOut.contr.Idx) : (dotOut.lhsIdx i q 0).val = (i 0).val := by
  unfold DotDims.lhsIdx
  rw [dif_neg (show ¬(0 : Fin S2000x128.rank) ∈ dotOut.lhsBatch by decide), dif_pos (show (0 : Fin S2000x128.rank) ∈ dotOut.lhsNonContracting by decide)]
  rfl
theorem dotOut_l1 (i : S2000x40.Idx) (q : dotOut.contr.Idx) : (dotOut.lhsIdx i q 1).val = (q ⟨0, by decide⟩).val :=
  dotOut.lhsIdx_val_of_single rfl i q
theorem dotOut_r0 (i : S2000x40.Idx) (q : dotOut.contr.Idx) : (dotOut.rhsIdx i q 0).val = (q ⟨0, by decide⟩).val :=
  dotOut.rhsIdx_val_of_single rfl i q
theorem dotOut_r1 (i : S2000x40.Idx) (q : dotOut.contr.Idx) : (dotOut.rhsIdx i q 1).val = (i 1).val := by
  unfold DotDims.rhsIdx
  rw [dif_neg (show ¬(1 : Fin S128x40.rank) ∈ dotOut.rhsBatch by decide), dif_pos (show (1 : Fin S128x40.rank) ∈ dotOut.rhsNonContracting by decide)]
  rfl

/-- Body 0 stores `relu (x · w + b)` of its blocks: entry `(p, e)` is `max (∑ⱼ x (p, j) · w (j, e) + b (0, e)) 0`. -/
theorem pay0_apply (x0 : Vec Ideal S2000x512 .f32) (x1 : Vec Ideal S512x128 .f32) (x2 : Vec Ideal S1x128 .f32)
    (p : Fin 2000) (e : Fin 128) :
    k0_pay1 (F := Ideal) x0 x1 x2 (ix2 p e)
      = max ((∑ j : Fin 512, x0 (ix2 p j) * x1 (ix2 j e)) + x2 (ix2 (0 : Fin 1) e)) (Ideal.ofBits .f32 0x00000000#32) := by
  unfold k0_pay1
  refine congrArg₂ max (congrArg₂ (· + ·) ?_ (spreadRow_apply x2 _ _ p e)) rfl
  refine (Cert.LibPlainDot.matmul_zero_apply dotIn rfl rfl dotIn_l0 dotIn_l1 dotIn_r0 dotIn_r1 _ _ p e).trans ?_
  refine Finset.sum_congr rfl fun j _ => congrArg₂ (· * ·) rfl ?_
  exact congrFun (shapeCast_self x1 _) _

/-- Body 1 stores `h · w` of its blocks: entry `(p, e)` is `∑ⱼ h (p, j) · w (j, e)`. -/
theorem pay1_apply (x0 : Vec Ideal S2000x128 .f32) (x1 : Vec Ideal S128x128 .f32) (p : Fin 2000) (e : Fin 128) :
    k1_pay1 (F := Ideal) x0 x1 (ix2 p e) = ∑ j : Fin 128, x0 (ix2 p j) * x1 (ix2 j e) := by
  unfold k1_pay1
  refine (Cert.LibPlainDot.matmul_zero_apply dotHid rfl rfl dotHid_l0 dotHid_l1 dotHid_r0 dotHid_r1 _ _ p e).trans ?_
  refine Finset.sum_congr rfl fun j _ => congrArg₂ (· * ·) ?_ ?_
  · exact congrFun (shapeCast_self x0 _) _
  · exact congrFun (shapeCast_self x1 _) _

/-- Body 2 stores `relu (a + b) · w` of its blocks: entry `(p, e)` is `∑ⱼ max (a (p, j) + b (0, j)) 0 · w (j, e)`. -/
theorem pay2_apply (x0 : Vec Ideal S2000x128 .f32) (x1 : Vec Ideal S1x128 .f32) (x2 : Vec Ideal S128x128 .f32)
    (p : Fin 2000) (e : Fin 128) :
    k2_pay1 (F := Ideal) x0 x1 x2 (ix2 p e)
      = ∑ j : Fin 128, max (x0 (ix2 p j) + x1 (ix2 (0 : Fin 1) j)) (Ideal.ofBits .f32 0x00000000#32) * x2 (ix2 j e) := by
  unfold k2_pay1
  refine (Cert.LibPlainDot.matmul_zero_apply dotHid rfl rfl dotHid_l0 dotHid_l1 dotHid_r0 dotHid_r1 _ _ p e).trans ?_
  refine Finset.sum_congr rfl fun j _ => ?_
  refine congrArg₂ (· * ·) (congrArg₂ max (congrArg₂ (· + ·) ?_ (spreadRow_apply x1 _ _ p j)) rfl) ?_
  · exact congrFun (shapeCast_self x0 _) _
  · exact congrFun (shapeCast_self x2 _) _

/-- Body 3 stores `relu (a + b) · w` of its blocks: entry `(p, e)` is `∑ⱼ max (a (p, j) + b (0, j)) 0 · w (j, e)`. -/
theorem pay3_apply (x0 : Vec Ideal S2000x128 .f32) (x1 : Vec Ideal S1x128 .f32) (x2 : Vec Ideal S128x128 .f32)
    (p : Fin 2000) (e : Fin 128) :
    k3_pay1 (F := Ideal) x0 x1 x2 (ix2 p e)
      = ∑ j : Fin 128, max (x0 (ix2 p j) + x1 (ix2 (0 : Fin 1) j)) (Ideal.ofBits .f32 0x00000000#32) * x2 (ix2 j e) := by
  unfold k3_pay1
  refine (Cert.LibPlainDot.matmul_zero_apply dotHid rfl rfl dotHid_l0 dotHid_l1 dotHid_r0 dotHid_r1 _ _ p e).trans ?_
  refine Finset.sum_congr rfl fun j _ => ?_
  refine congrArg₂ (· * ·) (congrArg₂ max (congrArg₂ (· + ·) ?_ (spreadRow_apply x1 _ _ p j)) rfl) ?_
  · exact congrFun (shapeCast_self x0 _) _
  · exact congrFun (shapeCast_self x2 _) _

/-- Body 4 stores `relu (a + b) · w + c` of its blocks. -/
theorem pay4_apply (x0 : Vec Ideal S2000x128 .f32) (x1 : Vec Ideal S1x128 .f32) (x2 : Vec Ideal S128x40 .f32)
    (x3 : Vec Ideal S1x40 .f32) (p : Fin 2000) (e : Fin 40) :
    k4_pay1 (F := Ideal) x0 x1 x2 x3 (ix2 p e)
      = (∑ j : Fin 128, max (x0 (ix2 p j) + x1 (ix2 (0 : Fin 1) j)) (Ideal.ofBits .f32 0x00000000#32) * x2 (ix2 j e))
        + x3 (ix2 (0 : Fin 1) e) := by
  unfold k4_pay1
  refine congrArg₂ (· + ·) ?_ (spreadRow_apply x3 _ _ p e)
  refine (Cert.LibPlainDot.matmul_zero_apply dotOut rfl rfl dotOut_l0 dotOut_l1 dotOut_r0 dotOut_r1 _ _ p e).trans ?_
  refine Finset.sum_congr rfl fun j _ => ?_
  refine congrArg₂ (· * ·) (congrArg₂ max (congrArg₂ (· + ·) ?_ (spreadRow_apply x1 _ _ p j)) rfl) ?_
  · exact congrFun (shapeCast_self x0 _) _
  · exact congrFun (shapeCast_self x2 _) _

end Cert.KernelIdeal.Body

end
-- ==== Proof.Region0.lean ====
/-
  Region 0 of the kernel program, the input layer: grid point `t` loads rows `2000·t … 2000·t + 1999` of the node
  features, the whole transposed weight matrix and the one-row bias, and writes back the same rows of the result. Read
  through the blocks, what point `t` writes back is block `t` of `relu (x · w + b)` of the three arrays as the region
  finds them; the fifty blocks tile the result, so after the region the result array is that function of the arrays.
-/
import proofs.«127997_j10531259810642_1_alg».proof.Proof.Gen.KernelIdeal.Frame
import proofs.«127997_j10531259810642_1_alg».proof.Proof.KernelBody

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)
open Cert.LibDenseLayers

variable (V : (c : Dev nD) → (b : Ref sig .tc) → Buf (Elt Ideal) ((c : Thread nD τ).loc b))

/-- The printed index maps over the grid: the feature block and the result block of point `t` are block row `t`, the
    weights and the bias are fetched whole. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the input layer of the arrays as the region finds them. -/
theorem flushed_eq (c : Dev nD) (t : Fin cfg0.N) :
    (dat0 V c).flushed 3 t
      = ((cfg0.win 3).blk t).view.read (Elt Ideal) (layerIn (V c main_arg0) (V c main_v27) (V c main_v28)) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x128) zero_offsets,
    View.ld_unit_zero (S := S1x128) zero_offsets]
  obtain ⟨e0, e1, e2, e3, e4, e5, e6, e7⟩ := index_maps t
  funext j
  obtain ⟨p, e, rfl⟩ : ∃ (p : Fin 2000) (e : Fin 128), j = ix2 p e := ⟨j 0, j 1, eq_ix2 j⟩
  refine (Body.pay0_apply (iblk0 V c 0 t) (iblk0 V c 1 t) (iblk0 V c 2 t) p e).trans ?_
  refine congrArg₂ max (congrArg₂ (· + ·) (Finset.sum_congr rfl fun k _ => congrArg₂ (· * ·) ?_ ?_) ?_) rfl
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 512 + 1 * k.val = k.val; omega
  · show V c main_v27 (((cfg0.win 1).blk t).view.emb (ix2 k e)) = _
    refine congrArg (V c main_v27) (funext fun a => Fin.ext ?_)
    match a with
    | ⟨0, _⟩ => show win0_1.index t (0 : Fin 2) * 512 + 1 * k.val = k.val; omega
    | ⟨1, _⟩ => show win0_1.index t (1 : Fin 2) * 128 + 1 * e.val = win0_3.index t (1 : Fin 2) * 128 + 1 * e.val; omega
  · show V c main_v28 (((cfg0.win 2).blk t).view.emb (ix2 (0 : Fin 1) e)) = _
    refine congrArg (V c main_v28) (funext fun a => Fin.ext ?_)
    match a with
    | ⟨0, _⟩ => show win0_2.index t (0 : Fin 2) * 1 + 1 * 0 = 0; omega
    | ⟨1, _⟩ => show win0_2.index t (1 : Fin 2) * 128 + 1 * e.val = win0_3.index t (1 : Fin 2) * 128 + 1 * e.val; omega

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v29).slice (win0_3.rect t)).set ↔ _
  rw [View.set_slice_whole, Rect.mem_set_unit]
  exact Iff.rfl

/-- Row `r` of the result is written back by point `r / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, e6, e7⟩ := index_maps t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the region its result array is the input layer of the arrays as the region finds them. -/
theorem final (c : Dev nD) :
    (dat0 V c).arrAt 3 cfg0.N = layerIn (V c main_arg0) (V c main_v27) (V c main_v28) :=
  (dat0 V c).arrAt_eq_of_cover 3 _ (fun t _ => flushed_eq V c t) cover

end Cert.KernelIdeal.Region0

end
-- ==== Proof.Region1.lean ====
/-
  Region 1 of the kernel program, the first layer's weight transform `h · w`: grid point `t` loads rows `2000·t … 2000·t + 1999` of the hidden features and the whole transposed weight matrix, and writes
  back the same rows of the result. Read through the blocks, what point `t` writes back is block `t` of the layer
  (Proof/LibDenseLayers.lean) of the arrays as the region finds them; the fifty blocks tile the result, so after the region
  the result array is that function of the arrays.
-/
import proofs.«127997_j10531259810642_1_alg».proof.Proof.Gen.KernelIdeal.Frame
import proofs.«127997_j10531259810642_1_alg».proof.Proof.KernelBody

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)
open Cert.LibDenseLayers

variable (V : (c : Dev nD) → (b : Ref sig .tc) → Buf (Elt Ideal) ((c : Thread nD τ).loc b))

/-- The printed index maps over the grid: the row block read and the row block written by point `t` are block row `t`;
    the weights and the one-row biases are fetched whole. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

set_option maxHeartbeats 1600000 in
/-- What point `t` writes back is block `t` of the layer of the arrays as the region finds them. -/
theorem flushed_eq (c : Dev nD) (t : Fin cfg1.N) :
    (dat1 V c).flushed 2 t
      = ((cfg1.win 2).blk t).view.read (Elt Ideal) (prod (V c main_v29) (V c main_v32)) := by
  show (cfg1.win 2).cut (grid1.coords t) ((dat1 V c).after 2 t) = _
  rw [after1_2]
  unfold out1_2
  rw [View.canon_unit_zero zero_offsets]
  simp only [View.ld_unit_zero (S := S2000x128) zero_offsets,
    View.ld_unit_zero (S := S128x128) zero_offsets]
  obtain ⟨e0, e1, e2, e3, e4, e5⟩ := index_maps t
  funext j
  obtain ⟨p, e, rfl⟩ : ∃ (p : Fin 2000) (e : Fin 128), j = ix2 p e := ⟨j 0, j 1, eq_ix2 j⟩
  refine (Body.pay1_apply (iblk1 V c 0 t) (iblk1 V c 1 t) p e).trans ?_
  show _ = ∑ j : Fin 128, (id (V c main_v29) : Mat 100000 128) (ix2 (rowOf (((cfg1.win 2).blk t).view.emb (ix2 p e))) j) * (id (V c main_v32) : Mat 128 128) (ix2 j (colOf (((cfg1.win 2).blk t).view.emb (ix2 p e))))
  apply Finset.sum_congr rfl
  intro k _
  refine congrArg₂ (· * ·) ?_ ?_
  · show V c main_v29 (((cfg1.win 0).blk t).view.emb (ix2 p k)) = _
    refine congrArg (V c main_v29) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * k.val = k.val; omega
  · show V c main_v32 (((cfg1.win 1).blk t).view.emb (ix2 k e)) = _
    refine congrArg (V c main_v32) (funext fun a => Fin.ext ?_)
    match a with
    | ⟨0, _⟩ => show win1_1.index t (0 : Fin 2) * 128 + 1 * k.val = k.val; omega
    | ⟨1, _⟩ => show win1_1.index t (1 : Fin 2) * 128 + 1 * e.val = win1_2.index t (1 : Fin 2) * 128 + 1 * e.val; omega

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v33).slice (win1_2.rect t)).set ↔ _
  rw [View.set_slice_whole, Rect.mem_set_unit]
  exact Iff.rfl

/-- Row `r` of the result is written back by point `r / 2000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, e4, e5⟩ := index_maps t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region its result array is the layer of the arrays as the region finds them. -/
theorem final (c : Dev nD) :
    (dat1 V c).arrAt 2 cfg1.N = prod (V c main_v29) (V c main_v32) :=
  (dat1 V c).arrAt_eq_of_cover 2 _ (fun t _ => flushed_eq V c t) cover

end Cert.KernelIdeal.Region1

end
-- ==== Proof.Region2.lean ====
/-
  Region 2 of the kernel program, a hidden layer `relu (a + b) · w` after an aggregation: grid point `t` loads rows `2000·t … 2000·t + 1999` of the aggregated features, the one-row bias and the whole transposed weight matrix, and writes
  back the same rows of the result. Read through the blocks, what point `t` writes back is block `t` of the layer
  (Proof/LibDenseLayers.lean) of the arrays as the region finds them; the fifty blocks tile the result, so after the region
  the result array is that function of the arrays.
-/
import proofs.«127997_j10531259810642_1_alg».proof.Proof.Gen.KernelIdeal.Frame
import proofs.«127997_j10531259810642_1_alg».proof.Proof.KernelBody

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)
open Cert.LibDenseLayers

variable (V : (c : Dev nD) → (b : Ref sig .tc) → Buf (Elt Ideal) ((c : Thread nD τ).loc b))

/-- The printed index maps over the grid: the row block read and the row block written by point `t` are block row `t`;
    the weights and the one-row biases are fetched whole. -/
theorem index_maps : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

set_option maxHeartbeats 1600000 in
/-- What point `t` writes back is block `t` of the layer of the arrays as the region finds them. -/
theorem flushed_eq (c : Dev nD) (t : Fin cfg2.N) :
    (dat2 V c).flushed 3 t
      = ((cfg2.win 3).blk t).view.read (Elt Ideal) (layerHidden (V c main_v46) (V c main_v52) (V c main_v49)) := by
  show (cfg2.win 3).cut (grid2.coords t) ((dat2 V c).after 3 t) = _
  rw [after2_3]
  unfold out2_3
  rw [View.canon_unit_zero zero_offsets]
  simp only [View.ld_unit_zero (S := S2000x128) zero_offsets,
    View.ld_unit_zero (S := S1x128) zero_offsets,
    View.ld_unit_zero (S := S128x128) zero_offsets]
  obtain ⟨e0, e1, e2, e3, e4, e5, e6, e7⟩ := index_maps t
  funext j
  obtain ⟨p, e, rfl⟩ : ∃ (p : Fin 2000) (e : Fin 128), j = ix2 p e := ⟨j 0, j 1, eq_ix2 j⟩
  refine (Body.pay2_apply (iblk2 V c 0 t) (iblk2 V c 1 t) (iblk2 V c 2 t) p e).trans ?_
  show _ = ∑ j : Fin 128, max ((id (V c main_v46) : Mat 100000 128) (ix2 (rowOf (((cfg2.win 3).blk t).view.emb (ix2 p e))) j) + (id (V c main_v52) : Mat 1 128) (ix2 (0 : Fin 1) j)) (Ideal.ofBits .f32 0x00000000#32)
      * (id (V c main_v49) : Mat 128 128) (ix2 j (colOf (((cfg2.win 3).blk t).view.emb (ix2 p e))))
  apply Finset.sum_congr rfl
  intro k _
  refine congrArg₂ (· * ·) (congrArg₂ max (congrArg₂ (· + ·) ?_ ?_) rfl) ?_
  · show V c main_v46 (((cfg2.win 0).blk t).view.emb (ix2 p k)) = _
    refine congrArg (V c main_v46) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  · show V c main_v52 (((cfg2.win 1).blk t).view.emb (ix2 (0 : Fin 1) k)) = _
    refine congrArg (V c main_v52) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_v49 (((cfg2.win 2).blk t).view.emb (ix2 k e)) = _
    refine congrArg (V c main_v49) (funext fun a => Fin.ext ?_)
    match a with
    | ⟨0, _⟩ => show win2_2.index t (0 : Fin 2) * 128 + 1 * k.val = k.val; omega
    | ⟨1, _⟩ => show win2_2.index t (1 : Fin 2) * 128 + 1 * e.val = win2_3.index t (1 : Fin 2) * 128 + 1 * e.val; omega

/-- An index of the result is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v53).slice (win2_3.rect t)).set ↔ _
  rw [View.set_slice_whole, Rect.mem_set_unit]
  exact Iff.rfl

/-- Row `r` of the result is written back by point `r / 2000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, e6, e7⟩ := index_maps t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- After the region its result array is the layer of the arrays as the region finds them. -/
theorem final (c : Dev nD) :
    (dat2 V c).arrAt 3 cfg2.N = layerHidden (V c main_v46) (V c main_v52) (V c main_v49) :=
  (dat2 V c).arrAt_eq_of_cover 3 _ (fun t _ => flushed_eq V c t) cover

end Cert.KernelIdeal.Region2

end
-- ==== Proof.Region3.lean ====
/-
  Region 3 of the kernel program, a hidden layer `relu (a + b) · w` after an aggregation: grid point `t` loads rows `2000·t … 2000·t + 1999` of the aggregated features, the one-row bias and the whole transposed weight matrix, and writes
  back the same rows of the result. Read through the blocks, what point `t` writes back is block `t` of the layer
  (Proof/LibDenseLayers.lean) of the arrays as the region finds them; the fifty blocks tile the result, so after the region
  the result array is that function of the arrays.
-/
import proofs.«127997_j10531259810642_1_alg».proof.Proof.Gen.KernelIdeal.Frame
import proofs.«127997_j10531259810642_1_alg».proof.Proof.KernelBody

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)
open Cert.LibDenseLayers

variable (V : (c : Dev nD) → (b : Ref sig .tc) → Buf (Elt Ideal) ((c : Thread nD τ).loc b))

/-- The printed index maps over the grid: the row block read and the row block written by point `t` are block row `t`;
    the weights and the one-row biases are fetched whole. -/
theorem index_maps : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

set_option maxHeartbeats 1600000 in
/-- What point `t` writes back is block `t` of the layer of the arrays as the region finds them. -/
theorem flushed_eq (c : Dev nD) (t : Fin cfg3.N) :
    (dat3 V c).flushed 3 t
      = ((cfg3.win 3).blk t).view.read (Elt Ideal) (layerHidden (V c main_v66) (V c main_v72) (V c main_v69)) := by
  show (cfg3.win 3).cut (grid3.coords t) ((dat3 V c).after 3 t) = _
  rw [after3_3]
  unfold out3_3
  rw [View.canon_unit_zero zero_offsets]
  simp only [View.ld_unit_zero (S := S2000x128) zero_offsets,
    View.ld_unit_zero (S := S1x128) zero_offsets,
    View.ld_unit_zero (S := S128x128) zero_offsets]
  obtain ⟨e0, e1, e2, e3, e4, e5, e6, e7⟩ := index_maps t
  funext j
  obtain ⟨p, e, rfl⟩ : ∃ (p : Fin 2000) (e : Fin 128), j = ix2 p e := ⟨j 0, j 1, eq_ix2 j⟩
  refine (Body.pay3_apply (iblk3 V c 0 t) (iblk3 V c 1 t) (iblk3 V c 2 t) p e).trans ?_
  show _ = ∑ j : Fin 128, max ((id (V c main_v66) : Mat 100000 128) (ix2 (rowOf (((cfg3.win 3).blk t).view.emb (ix2 p e))) j) + (id (V c main_v72) : Mat 1 128) (ix2 (0 : Fin 1) j)) (Ideal.ofBits .f32 0x00000000#32)
      * (id (V c main_v69) : Mat 128 128) (ix2 j (colOf (((cfg3.win 3).blk t).view.emb (ix2 p e))))
  apply Finset.sum_congr rfl
  intro k _
  refine congrArg₂ (· * ·) (congrArg₂ max (congrArg₂ (· + ·) ?_ ?_) rfl) ?_
  · show V c main_v66 (((cfg3.win 0).blk t).view.emb (ix2 p k)) = _
    refine congrArg (V c main_v66) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  · show V c main_v72 (((cfg3.win 1).blk t).view.emb (ix2 (0 : Fin 1) k)) = _
    refine congrArg (V c main_v72) (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · show V c main_v69 (((cfg3.win 2).blk t).view.emb (ix2 k e)) = _
    refine congrArg (V c main_v69) (funext fun a => Fin.ext ?_)
    match a with
    | ⟨0, _⟩ => show win3_2.index t (0 : Fin 2) * 128 + 1 * k.val = k.val; omega
    | ⟨1, _⟩ => show win3_2.index t (1 : Fin 2) * 128 + 1 * e.val = win3_3.index t (1 : Fin 2) * 128 + 1 * e.val; omega

/-- An index of the result is in point `t`'s block iff each coordinate is in the block's range on its axis. -/
theorem mem_blk (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v73).slice (win3_3.rect t)).set ↔ _
  rw [View.set_slice_whole, Rect.mem_set_unit]
  exact Iff.rfl

/-- Row `r` of the result is written back by point `r / 2000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  obtain ⟨t, ht⟩ : ∃ t : Fin cfg3.N, t.val = (i 0).val / 2000 := ⟨⟨(i 0).val / 2000, by omega⟩, rfl⟩
  obtain ⟨-, -, -, -, -, -, e6, e7⟩ := index_maps t
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- After the region its result array is the layer of the arrays as the region finds them. -/
theorem final (c : Dev nD) :
    (dat3 V c).arrAt 3 cfg3.N = layerHidden (V c main_v66) (V c main_v72) (V c main_v69) :=
  (dat3 V c).arrAt_eq_of_cover 3 _ (fun t _ => flushed_eq V c t) cover

end Cert.KernelIdeal.Region3

end
-- ==== Proof.Region4.lean ====
/-
  Region 4 of the kernel program, the output layer `relu (a + b) · w + c` after the last aggregation: grid point `t` loads rows `2000·t … 2000·t + 1999` of the aggregated features, both one-row biases and the whole transposed weight matrix, and writes
  back the same rows of the result. Read through the blocks, what point `t` writes back is block `t` of the layer
  (Proof/LibDenseLayers.lean) of the arrays as the region finds them; the fifty blocks tile the result, so after the region
  the result array is that function of the arrays.
-/
import proofs.«127997_j10531259810642_1_alg».proof.Proof.Gen.KernelIdeal.Frame
import proofs.«127997_j10531259810642_1_alg».proof.Proof.KernelBody

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat)
open Cert.LibDenseLayers

variable (V : (c : Dev nD) → (b : Ref sig .tc) → Buf (Elt Ideal) ((c : Thread nD τ).loc b))

/-- The printed index maps over the grid: the row block read and the row block written by point `t` are block row `t`;
    the weights and the one-row biases are fetched whole. -/
theorem index_maps : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

set_option maxHeartbeats 1600000 in
/-- What point `t` writes back is block `t` of the layer of the arrays as the region finds them. -/
theorem flushed_eq (c : Dev nD) (t : Fin cfg4.N) :
    (dat4 V c).flushed 4 t
      = ((cfg4.win 4).blk t).view.read (Elt Ideal) (layerOut (V c main_v86) (V c main_v90) (V c main_v87) (V c main_v91)) := by
  show (cfg4.win 4).cut (grid4.coords t) ((dat4 V c).after 4 t) = _
  rw [after4_4]
  unfold out4_4
  rw [View.canon_unit_zero zero_offsets]
  simp only [View.ld_unit_zero (S := S2000x128) zero_offsets,
    View.ld_unit_zero (S := S1x128) zero_offsets,
    View.ld_unit_zero (S := S128x40) zero_offsets,
    View.ld_unit_zero (S := S1x40) zero_offsets]
  obtain ⟨e0, e1, e2, e3, e4, e5, e6, e7, e8, e9⟩ := index_maps t
  funext j
  obtain ⟨p, e, rfl⟩ : ∃ (p : Fin 2000) (e : Fin 40), j = ix2 p e := ⟨j 0, j 1, eq_ix2 j⟩
  refine (Body.pay4_apply (iblk4 V c 0 t) (iblk4 V c 1 t) (iblk4 V c 2 t) (iblk4 V c 3 t) p e).trans ?_
  refine congrArg₂ (· + ·) (Finset.sum_congr rfl fun k _ => congrArg₂ (· * ·) (congrArg₂ max (congrArg₂ (· + ·) ?_ ?_) rfl) ?_) ?_
  · show V c main_v86 (((cfg4.win 0).blk t).view.emb (ix2 p k)) = _
    refine congrArg (V c main_v86) (funext fun a => Fin.ext ?_)
    match a with
    | ⟨0, _⟩ => show win4_0.index t (0 : Fin 2) * 2000 + 1 * p.val = win4_4.index t (0 : Fin 2) * 2000 + 1 * p.val; omega
    | ⟨1, _⟩ => show win4_0.index t (1 : Fin 2) * 128 + 1 * k.val = k.val; omega
  · show V c main_v90 (((cfg4.win 1).blk t).view.emb (ix2 (0 : Fin 1) k)) = _
    refine congrArg (V c main_v90) (funext fun a => Fin.ext ?_)
    match a with
    | ⟨0, _⟩ => show win4_1.index t (0 : Fin 2) * 1 + 1 * 0 = 0; omega
    | ⟨1, _⟩ => show win4_1.index t (1 : Fin 2) * 128 + 1 * k.val = k.val; omega
  · show V c main_v87 (((cfg4.win 2).blk t).view.emb (ix2 k e)) = _
    refine congrArg (V c main_v87) (funext fun a => Fin.ext ?_)
    match a with
    | ⟨0, _⟩ => show win4_2.index t (0 : Fin 2) * 128 + 1 * k.val = k.val; omega
    | ⟨1, _⟩ => show win4_2.index t (1 : Fin 2) * 40 + 1 * e.val = win4_4.index t (1 : Fin 2) * 40 + 1 * e.val; omega
  · show V c main_v91 (((cfg4.win 3).blk t).view.emb (ix2 (0 : Fin 1) e)) = _
    refine congrArg (V c main_v91) (funext fun a => Fin.ext ?_)
    match a with
    | ⟨0, _⟩ => show win4_3.index t (0 : Fin 2) * 1 + 1 * 0 = 0; omega
    | ⟨1, _⟩ => show win4_3.index t (1 : Fin 2) * 40 + 1 * e.val = win4_4.index t (1 : Fin 2) * 40 + 1 * e.val; omega

/-- An index of the result is in point `t`'s block iff each coordinate is in the block's range on its axis. -/
theorem mem_blk (t : Fin cfg4.N) (i : S100000x40.Idx) :
    i ∈ ((cfg4.win 4).blk t).view.set ↔ ∀ a : Fin 2, win4_4.index t a * S2000x40.size a ≤ (i a).val
      ∧ (i a).val < win4_4.index t a * S2000x40.size a + S2000x40.size a := by
  show i ∈ ((View.whole main_v92).slice (win4_4.rect t)).set ↔ _
  rw [View.set_slice_whole, Rect.mem_set_unit]
  exact Iff.rfl

/-- Row `r` of the result is written back by point `r / 2000`. -/
theorem cover (i : S100000x40.Idx) :
    ∃ t : Fin cfg4.N, (cfg4.win 4).flush t = true ∧ i ∈ ((cfg4.win 4).blk t).view.set := by
  have hi0 : (i 0).val < 100000 := (i 0).isLt
  have hi1 : (i 1).val < 40 := (i 1).isLt
  have hN : cfg4.N = 50 := N_4
  obtain ⟨t, ht⟩ : ∃ t : Fin cfg4.N, t.val = (i 0).val / 2000 := ⟨⟨(i 0).val / 2000, by omega⟩, rfl⟩
  obtain ⟨-, -, -, -, -, -, -, -, e8, e9⟩ := index_maps t
  refine ⟨t, flush4_4 t, ?_⟩
  rw [mem_blk]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 40 ≤ (i 1).val ∧ (i 1).val < win4_4.index t (1 : Fin 2) * 40 + 40; omega

/-- After the region its result array is the layer of the arrays as the region finds them. -/
theorem final (c : Dev nD) :
    (dat4 V c).arrAt 4 cfg4.N = layerOut (V c main_v86) (V c main_v90) (V c main_v87) (V c main_v91) :=
  (dat4 V c).arrAt_eq_of_cover 4 _ (fun t _ => flushed_eq V c t) cover

end Cert.KernelIdeal.Region4

end
-- ==== Proof.HostStretch.lean ====
/-
  The five stretches of host operations of the kernel program, read at the buffers that the regions and the later
  stretches consume, as functions of the buffers they read — over ANY contents of the buffers at the stretch's start.

  The first stretch builds the graph quantities from the edge list: the source and destination lists with the
  self-loops appended, and the symmetric normalisation `rsqrt(deg[src]) · rsqrt(deg[dst])`; it also transposes the input
  weights and lays the input bias out as one row. These are, operation for operation, the reference program's own
  stages, so they are stated as those stages. Each later stretch slices, transposes and lays out the next layer's
  weights and bias, and — from the second on — aggregates the previous region's result over the graph: gather the
  source rows (a negative row number wrapped once), scale each by its normalisation, and add into the destination rows.
-/
import proofs.«127997_j10531259810642_1_alg».proof.Proof.Gen.KernelIdeal.Launch
import proofs.«127997_j10531259810642_1_alg».proof.Proof.Gen.ReferenceIdeal.Read

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-- The neighbourhood aggregation of a feature matrix `h`: row `src k` of `h` (a negative row number wrapped once by the
    node count), scaled by `norm k`, added into row `dst k` of a zero matrix, over all edges and self-loops `k`. -/
def aggregate (src dst : (⟨S1700000, .i32⟩ : BufTy).Contents (Elt F)) (norm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 norm)))

variable (W : Valuation τ sig (Elt F))

/-- The source list with the self-loops appended. -/
theorem stretch0_v3 :
    (after hostOps0 W (Proc.devRef .tc main_v3) : (⟨S1700000, .i32⟩ : BufTy).Contents (Elt F)) = Cert.ReferenceIdeal.Read.val_main_v3 (F := F) (W (Proc.devRef .tc main_arg1)) := by
  dsimp only [hostOps0]
  after_results_simp <;> rfl

/-- The destination list with the self-loops appended. -/
theorem stretch0_v6 :
    (after hostOps0 W (Proc.devRef .tc main_v6) : (⟨S1700000, .i32⟩ : BufTy).Contents (Elt F)) = Cert.ReferenceIdeal.Read.val_main_v6 (F := F) (W (Proc.devRef .tc main_arg1)) := by
  dsimp only [hostOps0]
  after_results_simp <;> rfl

/-- The symmetric normalisation of every edge and self-loop. -/
theorem stretch0_v26 :
    (after hostOps0 W (Proc.devRef .tc main_v26) : (⟨S1700000, .f32⟩ : BufTy).Contents (Elt F)) = Cert.ReferenceIdeal.Read.val_main_v26 (F := F) (W (Proc.devRef .tc main_arg1)) := by
  dsimp only [hostOps0]
  after_results_simp <;> rfl

/-- The input weights transposed. -/
theorem stretch0_v27 :
    (after hostOps0 W (Proc.devRef .tc main_v27) : (⟨S512x128, .f32⟩ : BufTy).Contents (Elt F)) = Cert.ReferenceIdeal.Read.val_main_v27 (F := F) (W (Proc.devRef .tc main_arg2)) := by
  dsimp only [hostOps0]
  after_results_simp <;> rfl

/-- The input bias as one row. -/
theorem stretch0_v28 :
    (after hostOps0 W (Proc.devRef .tc main_v28) : (⟨S1x128, .f32⟩ : BufTy).Contents (Elt F)) = shapeCast S1x128 (W (Proc.devRef .tc main_arg3)) shapeCasts_S128_S1x128 := by
  dsimp only [hostOps0]
  after_results_simp <;> rfl

/-- The first layer's weights, sliced out and transposed. -/
theorem stretch1_v32 :
    (after hostOps1 W (Proc.devRef .tc main_v32) : (⟨S128x128, .f32⟩ : BufTy).Contents (Elt F)) = Cert.ReferenceIdeal.Read.val_main_v37 (F := F) (W (Proc.devRef .tc main_arg4)) := by
  dsimp only [hostOps1]
  after_results_simp <;> rfl

/-- The first aggregation. -/
theorem stretch2_v46 :
    (after hostOps2 W (Proc.devRef .tc main_v46) : (⟨S100000x128, .f32⟩ : BufTy).Contents (Elt F)) = aggregate (W (Proc.devRef .tc main_v3)) (W (Proc.devRef .tc main_v6)) (W (Proc.devRef .tc main_v26)) (W (Proc.devRef .tc main_v33)) := by
  dsimp only [hostOps2]
  after_results_simp <;> rfl

/-- The first layer's bias as one row. -/
theorem stretch2_v52 :
    (after hostOps2 W (Proc.devRef .tc main_v52) : (⟨S1x128, .f32⟩ : BufTy).Contents (Elt F)) = shapeCast S1x128 (Cert.ReferenceIdeal.Read.val_main_v36 (F := F) (W (Proc.devRef .tc main_arg5))) shapeCasts_S128_S1x128 := by
  dsimp only [hostOps2]
  after_results_simp <;> rfl

/-- The second layer's weights, sliced out and transposed. -/
theorem stretch2_v49 :
    (after hostOps2 W (Proc.devRef .tc main_v49) : (⟨S128x128, .f32⟩ : BufTy).Contents (Elt F)) = Cert.ReferenceIdeal.Read.val_main_v60 (F := F) (W (Proc.devRef .tc main_arg4)) := by
  dsimp only [hostOps2]
  after_results_simp <;> rfl

/-- The second aggregation. -/
theorem stretch3_v66 :
    (after hostOps3 W (Proc.devRef .tc main_v66) : (⟨S100000x128, .f32⟩ : BufTy).Contents (Elt F)) = aggregate (W (Proc.devRef .tc main_v3)) (W (Proc.devRef .tc main_v6)) (W (Proc.devRef .tc main_v26)) (W (Proc.devRef .tc main_v53)) := by
  dsimp only [hostOps3]
  after_results_simp <;> rfl

/-- The second layer's bias as one row. -/
theorem stretch3_v72 :
    (after hostOps3 W (Proc.devRef .tc main_v72) : (⟨S1x128, .f32⟩ : BufTy).Contents (Elt F)) = shapeCast S1x128 (Cert.ReferenceIdeal.Read.val_main_v59 (F := F) (W (Proc.devRef .tc main_arg5))) shapeCasts_S128_S1x128 := by
  dsimp only [hostOps3]
  after_results_simp <;> rfl

/-- The third layer's weights, sliced out and transposed. -/
theorem stretch3_v69 :
    (after hostOps3 W (Proc.devRef .tc main_v69) : (⟨S128x128, .f32⟩ : BufTy).Contents (Elt F)) = Cert.ReferenceIdeal.Read.val_main_v83 (F := F) (W (Proc.devRef .tc main_arg4)) := by
  dsimp only [hostOps3]
  after_results_simp <;> rfl

/-- The third aggregation. -/
theorem stretch4_v86 :
    (after hostOps4 W (Proc.devRef .tc main_v86) : (⟨S100000x128, .f32⟩ : BufTy).Contents (Elt F)) = aggregate (W (Proc.devRef .tc main_v3)) (W (Proc.devRef .tc main_v6)) (W (Proc.devRef .tc main_v26)) (W (Proc.devRef .tc main_v73)) := by
  dsimp only [hostOps4]
  after_results_simp <;> rfl

/-- The third layer's bias as one row. -/
theorem stretch4_v90 :
    (after hostOps4 W (Proc.devRef .tc main_v90) : (⟨S1x128, .f32⟩ : BufTy).Contents (Elt F)) = shapeCast S1x128 (Cert.ReferenceIdeal.Read.val_main_v82 (F := F) (W (Proc.devRef .tc main_arg5))) shapeCasts_S128_S1x128 := by
  dsimp only [hostOps4]
  after_results_simp <;> rfl

/-- The output weights transposed. -/
theorem stretch4_v87 :
    (after hostOps4 W (Proc.devRef .tc main_v87) : (⟨S128x40, .f32⟩ : BufTy).Contents (Elt F)) = Cert.ReferenceIdeal.Read.val_main_v102 (F := F) (W (Proc.devRef .tc main_arg6)) := by
  dsimp only [hostOps4]
  after_results_simp <;> rfl

/-- The output bias as one row. -/
theorem stretch4_v91 :
    (after hostOps4 W (Proc.devRef .tc main_v91) : (⟨S1x40, .f32⟩ : BufTy).Contents (Elt F)) = shapeCast S1x40 (W (Proc.devRef .tc main_arg7)) shapeCasts_S40_S1x40 := by
  dsimp only [hostOps4]
  after_results_simp <;> rfl

end Cert.KernelIdeal.Stretch

end
-- ==== Proof.Network.lean ====
/-
  The three-layer graph convolution network as one function of the eight argument arrays, built stage by stage.

  `graphAgg x1 h` aggregates a feature matrix over the graph that the edge list `x1` describes (self-loops appended,
  symmetric normalisation). The stages: the input layer `relu (x0 · W0ᵀ + b0)`; the first weight transform; then
  three times "aggregate, add the layer's bias, rectify, transform by the next weights" — the last transform being the
  output layer with its own bias. The weights (transposed) and the biases are the reference program's own stages of the
  arguments; a bias enters as a one-row matrix.
-/
import proofs.«127997_j10531259810642_1_alg».proof.Proof.HostStretch
import proofs.«127997_j10531259810642_1_alg».proof.Proof.LibDenseLayers

set_option maxRecDepth 16384

noncomputable section

namespace Cert.Network

open Cert.KernelIdeal Cert.KernelIdeal.Gen Idealize.ShloMosaic Idealize.ShloMosaic.TcCoe Cert.LibDenseLayers Cert.KernelIdeal.Stretch

/-- Aggregation over the graph of the edge list `x1`. -/
def graphAgg (x1 : (⟨S2x1600000, .i32⟩ : BufTy).Contents (Elt Ideal)) (h : (⟨S100000x128, .f32⟩ : BufTy).Contents (Elt Ideal)) : (⟨S100000x128, .f32⟩ : BufTy).Contents (Elt Ideal) :=
  aggregate (Cert.ReferenceIdeal.Read.val_main_v3 (F := Ideal) x1) (Cert.ReferenceIdeal.Read.val_main_v6 (F := Ideal) x1) (Cert.ReferenceIdeal.Read.val_main_v26 (F := Ideal) x1) h

/-- A vector of 128 entries as a one-row matrix. -/
def row128 (v : (⟨S128, .f32⟩ : BufTy).Contents (Elt Ideal)) : Mat 1 128 := shapeCast S1x128 v shapeCasts_S128_S1x128
/-- A vector of 40 entries as a one-row matrix. -/
def row40 (v : (⟨S40, .f32⟩ : BufTy).Contents (Elt Ideal)) : Mat 1 40 := shapeCast S1x40 v shapeCasts_S40_S1x40

/-- The input layer. -/
def stage0 (x0 : (⟨S100000x512, .f32⟩ : BufTy).Contents (Elt Ideal)) (x2 : (⟨S128x512, .f32⟩ : BufTy).Contents (Elt Ideal)) (x3 : (⟨S128, .f32⟩ : BufTy).Contents (Elt Ideal)) : Mat 100000 128 :=
  layerIn x0 (Cert.ReferenceIdeal.Read.val_main_v27 (F := Ideal) x2) (row128 x3)

/-- The first layer's weight transform. -/
def stage1 (x0 : (⟨S100000x512, .f32⟩ : BufTy).Contents (Elt Ideal)) (x2 : (⟨S128x512, .f32⟩ : BufTy).Contents (Elt Ideal)) (x3 : (⟨S128, .f32⟩ : BufTy).Contents (Elt Ideal))
    (x4 : (⟨S3x128x128, .f32⟩ : BufTy).Contents (Elt Ideal)) : Mat 100000 128 :=
  prod (stage0 x0 x2 x3) (Cert.ReferenceIdeal.Read.val_main_v37 (F := Ideal) x4)

/-- First aggregation, first bias, rectify, second weight transform. -/
def stage2 (x0 : (⟨S100000x512, .f32⟩ : BufTy).Contents (Elt Ideal)) (x1 : (⟨S2x1600000, .i32⟩ : BufTy).Contents (Elt Ideal)) (x2 : (⟨S128x512, .f32⟩ : BufTy).Contents (Elt Ideal))
    (x3 : (⟨S128, .f32⟩ : BufTy).Contents (Elt Ideal)) (x4 : (⟨S3x128x128, .f32⟩ : BufTy).Contents (Elt Ideal)) (x5 : (⟨S3x128, .f32⟩ : BufTy).Contents (Elt Ideal)) : Mat 100000 128 :=
  layerHidden (graphAgg x1 (stage1 x0 x2 x3 x4)) (row128 (Cert.ReferenceIdeal.Read.val_main_v36 (F := Ideal) x5)) (Cert.ReferenceIdeal.Read.val_main_v60 (F := Ideal) x4)

/-- Second aggregation, second bias, rectify, third weight transform. -/
def stage3 (x0 : (⟨S100000x512, .f32⟩ : BufTy).Contents (Elt Ideal)) (x1 : (⟨S2x1600000, .i32⟩ : BufTy).Contents (Elt Ideal)) (x2 : (⟨S128x512, .f32⟩ : BufTy).Contents (Elt Ideal))
    (x3 : (⟨S128, .f32⟩ : BufTy).Contents (Elt Ideal)) (x4 : (⟨S3x128x128, .f32⟩ : BufTy).Contents (Elt Ideal)) (x5 : (⟨S3x128, .f32⟩ : BufTy).Contents (Elt Ideal)) : Mat 100000 128 :=
  layerHidden (graphAgg x1 (stage2 x0 x1 x2 x3 x4 x5)) (row128 (Cert.ReferenceIdeal.Read.val_main_v59 (F := Ideal) x5)) (Cert.ReferenceIdeal.Read.val_main_v83 (F := Ideal) x4)

/-- The whole network: third aggregation, third bias, rectify, output layer. -/
def network (x0 : (⟨S100000x512, .f32⟩ : BufTy).Contents (Elt Ideal)) (x1 : (⟨S2x1600000, .i32⟩ : BufTy).Contents (Elt Ideal)) (x2 : (⟨S128x512, .f32⟩ : BufTy).Contents (Elt Ideal))
    (x3 : (⟨S128, .f32⟩ : BufTy).Contents (Elt Ideal)) (x4 : (⟨S3x128x128, .f32⟩ : BufTy).Contents (Elt Ideal)) (x5 : (⟨S3x128, .f32⟩ : BufTy).Contents (Elt Ideal))
    (x6 : (⟨S40x128, .f32⟩ : BufTy).Contents (Elt Ideal)) (x7 : (⟨S40, .f32⟩ : BufTy).Contents (Elt Ideal)) : Mat 100000 40 :=
  layerOut (graphAgg x1 (stage3 x0 x1 x2 x3 x4 x5)) (row128 (Cert.ReferenceIdeal.Read.val_main_v82 (F := Ideal) x5))
    (Cert.ReferenceIdeal.Read.val_main_v102 (F := Ideal) x6) (row40 x7)

end Cert.Network

end
-- ==== Proof.KernelValue.lean ====
/-
  The kernel program's result as the network of its arguments.

  The contents of the buffers at the ten segment boundaries are a fold through the program. A buffer that a segment
  does not write is carried across it unchanged: the graph quantities (source list, destination list, normalisation)
  computed by the first stretch reach every aggregation, and the argument arrays reach every stretch that slices them.
  Region by region the result array is the dense layer of the arrays the region finds (Proof/Region*.lean), and stretch
  by stretch the consumed buffers are the host stages of what the stretch finds (Proof/HostStretch.lean); composed,
  the last region's result is `Network.network` of the eight arguments.
-/
import proofs.«127997_j10531259810642_1_alg».proof.Proof.Region0
import proofs.«127997_j10531259810642_1_alg».proof.Proof.Region1
import proofs.«127997_j10531259810642_1_alg».proof.Proof.Region2
import proofs.«127997_j10531259810642_1_alg».proof.Proof.Region3
import proofs.«127997_j10531259810642_1_alg».proof.Proof.Region4
import proofs.«127997_j10531259810642_1_alg».proof.Proof.Network

set_option maxRecDepth 16384

noncomputable section

namespace Cert.KernelIdeal.Chain

open Cert.KernelIdeal Cert.KernelIdeal.Gen Idealize.ShloMosaic Idealize.ShloMosaic.TcCoe Idealize.SL.Sem
open Cert.LibDenseLayers Cert.Network Cert.KernelIdeal.Stretch

variable (m : (ℓ : Loc nD τ sig) → Buf (Elt Ideal) ℓ) (ρ : Dev nD → PrngReg) (c : Dev nD)

/-- A stretch of host operations keeps a buffer none of its operations writes. -/
macro "not_written" : tactic => `(tactic| (
  refine StableHlo.after_of_forall_not_mem _ _ (List.forall_iff_forall_mem.mp ?_)
  simp only [hostOps0, hostOps1, hostOps2, hostOps3, hostOps4, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Buffers carried across the segments -/

theorem step_src_2 : W2 m ρ c (Proc.devRef .tc main_v3) = W1 m ρ c (Proc.devRef .tc main_v3) := W2_of_ne m ρ c main_v3 (by decide)
theorem step_src_3 : W3 m ρ c (Proc.devRef .tc main_v3) = W2 m ρ c (Proc.devRef .tc main_v3) := by not_written
theorem step_src_4 : W4 m ρ c (Proc.devRef .tc main_v3) = W3 m ρ c (Proc.devRef .tc main_v3) := W4_of_ne m ρ c main_v3 (by decide)
theorem step_src_5 : W5 m ρ c (Proc.devRef .tc main_v3) = W4 m ρ c (Proc.devRef .tc main_v3) := by not_written
theorem step_src_6 : W6 m ρ c (Proc.devRef .tc main_v3) = W5 m ρ c (Proc.devRef .tc main_v3) := W6_of_ne m ρ c main_v3 (by decide)
theorem step_src_7 : W7 m ρ c (Proc.devRef .tc main_v3) = W6 m ρ c (Proc.devRef .tc main_v3) := by not_written
theorem step_src_8 : W8 m ρ c (Proc.devRef .tc main_v3) = W7 m ρ c (Proc.devRef .tc main_v3) := W8_of_ne m ρ c main_v3 (by decide)
theorem src_at4 : W4 m ρ c (Proc.devRef .tc main_v3) = Cert.ReferenceIdeal.Read.val_main_v3 (F := Ideal) (m ((c : Thread nD τ).loc main_arg1)) :=
  ((step_src_4 m ρ c).trans ((step_src_3 m ρ c).trans (step_src_2 m ρ c))).trans (stretch0_v3 (W0 m ρ c))
theorem src_at6 : W6 m ρ c (Proc.devRef .tc main_v3) = Cert.ReferenceIdeal.Read.val_main_v3 (F := Ideal) (m ((c : Thread nD τ).loc main_arg1)) :=
  ((step_src_6 m ρ c).trans ((step_src_5 m ρ c).trans ((step_src_4 m ρ c).trans ((step_src_3 m ρ c).trans (step_src_2 m ρ c))))).trans (stretch0_v3 (W0 m ρ c))
theorem src_at8 : W8 m ρ c (Proc.devRef .tc main_v3) = Cert.ReferenceIdeal.Read.val_main_v3 (F := Ideal) (m ((c : Thread nD τ).loc main_arg1)) :=
  ((step_src_8 m ρ c).trans ((step_src_7 m ρ c).trans ((step_src_6 m ρ c).trans ((step_src_5 m ρ c).trans ((step_src_4 m ρ c).trans ((step_src_3 m ρ c).trans (step_src_2 m ρ c))))))).trans (stretch0_v3 (W0 m ρ c))

theorem step_dst_2 : W2 m ρ c (Proc.devRef .tc main_v6) = W1 m ρ c (Proc.devRef .tc main_v6) := W2_of_ne m ρ c main_v6 (by decide)
theorem step_dst_3 : W3 m ρ c (Proc.devRef .tc main_v6) = W2 m ρ c (Proc.devRef .tc main_v6) := by not_written
theorem step_dst_4 : W4 m ρ c (Proc.devRef .tc main_v6) = W3 m ρ c (Proc.devRef .tc main_v6) := W4_of_ne m ρ c main_v6 (by decide)
theorem step_dst_5 : W5 m ρ c (Proc.devRef .tc main_v6) = W4 m ρ c (Proc.devRef .tc main_v6) := by not_written
theorem step_dst_6 : W6 m ρ c (Proc.devRef .tc main_v6) = W5 m ρ c (Proc.devRef .tc main_v6) := W6_of_ne m ρ c main_v6 (by decide)
theorem step_dst_7 : W7 m ρ c (Proc.devRef .tc main_v6) = W6 m ρ c (Proc.devRef .tc main_v6) := by not_written
theorem step_dst_8 : W8 m ρ c (Proc.devRef .tc main_v6) = W7 m ρ c (Proc.devRef .tc main_v6) := W8_of_ne m ρ c main_v6 (by decide)
theorem dst_at4 : W4 m ρ c (Proc.devRef .tc main_v6) = Cert.ReferenceIdeal.Read.val_main_v6 (F := Ideal) (m ((c : Thread nD τ).loc main_arg1)) :=
  ((step_dst_4 m ρ c).trans ((step_dst_3 m ρ c).trans (step_dst_2 m ρ c))).trans (stretch0_v6 (W0 m ρ c))
theorem dst_at6 : W6 m ρ c (Proc.devRef .tc main_v6) = Cert.ReferenceIdeal.Read.val_main_v6 (F := Ideal) (m ((c : Thread nD τ).loc main_arg1)) :=
  ((step_dst_6 m ρ c).trans ((step_dst_5 m ρ c).trans ((step_dst_4 m ρ c).trans ((step_dst_3 m ρ c).trans (step_dst_2 m ρ c))))).trans (stretch0_v6 (W0 m ρ c))
theorem dst_at8 : W8 m ρ c (Proc.devRef .tc main_v6) = Cert.ReferenceIdeal.Read.val_main_v6 (F := Ideal) (m ((c : Thread nD τ).loc main_arg1)) :=
  ((step_dst_8 m ρ c).trans ((step_dst_7 m ρ c).trans ((step_dst_6 m ρ c).trans ((step_dst_5 m ρ c).trans ((step_dst_4 m ρ c).trans ((step_dst_3 m ρ c).trans (step_dst_2 m ρ c))))))).trans (stretch0_v6 (W0 m ρ c))

theorem step_norm_2 : W2 m ρ c (Proc.devRef .tc main_v26) = W1 m ρ c (Proc.devRef .tc main_v26) := W2_of_ne m ρ c main_v26 (by decide)
theorem step_norm_3 : W3 m ρ c (Proc.devRef .tc main_v26) = W2 m ρ c (Proc.devRef .tc main_v26) := by not_written
theorem step_norm_4 : W4 m ρ c (Proc.devRef .tc main_v26) = W3 m ρ c (Proc.devRef .tc main_v26) := W4_of_ne m ρ c main_v26 (by decide)
theorem step_norm_5 : W5 m ρ c (Proc.devRef .tc main_v26) = W4 m ρ c (Proc.devRef .tc main_v26) := by not_written
theorem step_norm_6 : W6 m ρ c (Proc.devRef .tc main_v26) = W5 m ρ c (Proc.devRef .tc main_v26) := W6_of_ne m ρ c main_v26 (by decide)
theorem step_norm_7 : W7 m ρ c (Proc.devRef .tc main_v26) = W6 m ρ c (Proc.devRef .tc main_v26) := by not_written
theorem step_norm_8 : W8 m ρ c (Proc.devRef .tc main_v26) = W7 m ρ c (Proc.devRef .tc main_v26) := W8_of_ne m ρ c main_v26 (by decide)
theorem norm_at4 : W4 m ρ c (Proc.devRef .tc main_v26) = Cert.ReferenceIdeal.Read.val_main_v26 (F := Ideal) (m ((c : Thread nD τ).loc main_arg1)) :=
  ((step_norm_4 m ρ c).trans ((step_norm_3 m ρ c).trans (step_norm_2 m ρ c))).trans (stretch0_v26 (W0 m ρ c))
theorem norm_at6 : W6 m ρ c (Proc.devRef .tc main_v26) = Cert.ReferenceIdeal.Read.val_main_v26 (F := Ideal) (m ((c : Thread nD τ).loc main_arg1)) :=
  ((step_norm_6 m ρ c).trans ((step_norm_5 m ρ c).trans ((step_norm_4 m ρ c).trans ((step_norm_3 m ρ c).trans (step_norm_2 m ρ c))))).trans (stretch0_v26 (W0 m ρ c))
theorem norm_at8 : W8 m ρ c (Proc.devRef .tc main_v26) = Cert.ReferenceIdeal.Read.val_main_v26 (F := Ideal) (m ((c : Thread nD τ).loc main_arg1)) :=
  ((step_norm_8 m ρ c).trans ((step_norm_7 m ρ c).trans ((step_norm_6 m ρ c).trans ((step_norm_5 m ρ c).trans ((step_norm_4 m ρ c).trans ((step_norm_3 m ρ c).trans (step_norm_2 m ρ c))))))).trans (stretch0_v26 (W0 m ρ c))

theorem step_arg4_1 : W1 m ρ c (Proc.devRef .tc main_arg4) = W0 m ρ c (Proc.devRef .tc main_arg4) := by not_written
theorem step_arg4_2 : W2 m ρ c (Proc.devRef .tc main_arg4) = W1 m ρ c (Proc.devRef .tc main_arg4) := W2_of_ne m ρ c main_arg4 (by decide)
theorem step_arg4_3 : W3 m ρ c (Proc.devRef .tc main_arg4) = W2 m ρ c (Proc.devRef .tc main_arg4) := by not_written
theorem step_arg4_4 : W4 m ρ c (Proc.devRef .tc main_arg4) = W3 m ρ c (Proc.devRef .tc main_arg4) := W4_of_ne m ρ c main_arg4 (by decide)
theorem step_arg4_5 : W5 m ρ c (Proc.devRef .tc main_arg4) = W4 m ρ c (Proc.devRef .tc main_arg4) := by not_written
theorem step_arg4_6 : W6 m ρ c (Proc.devRef .tc main_arg4) = W5 m ρ c (Proc.devRef .tc main_arg4) := W6_of_ne m ρ c main_arg4 (by decide)
theorem arg4_at2 : W2 m ρ c (Proc.devRef .tc main_arg4) = (m ((c : Thread nD τ).loc main_arg4)) :=
  ((step_arg4_2 m ρ c).trans (step_arg4_1 m ρ c)).trans rfl
theorem arg4_at4 : W4 m ρ c (Proc.devRef .tc main_arg4) = (m ((c : Thread nD τ).loc main_arg4)) :=
  ((step_arg4_4 m ρ c).trans ((step_arg4_3 m ρ c).trans ((step_arg4_2 m ρ c).trans (step_arg4_1 m ρ c)))).trans rfl
theorem arg4_at6 : W6 m ρ c (Proc.devRef .tc main_arg4) = (m ((c : Thread nD τ).loc main_arg4)) :=
  ((step_arg4_6 m ρ c).trans ((step_arg4_5 m ρ c).trans ((step_arg4_4 m ρ c).trans ((step_arg4_3 m ρ c).trans ((step_arg4_2 m ρ c).trans (step_arg4_1 m ρ c)))))).trans rfl

theorem step_arg5_1 : W1 m ρ c (Proc.devRef .tc main_arg5) = W0 m ρ c (Proc.devRef .tc main_arg5) := by not_written
theorem step_arg5_2 : W2 m ρ c (Proc.devRef .tc main_arg5) = W1 m ρ c (Proc.devRef .tc main_arg5) := W2_of_ne m ρ c main_arg5 (by decide)
theorem step_arg5_3 : W3 m ρ c (Proc.devRef .tc main_arg5) = W2 m ρ c (Proc.devRef .tc main_arg5) := by not_written
theorem step_arg5_4 : W4 m ρ c (Proc.devRef .tc main_arg5) = W3 m ρ c (Proc.devRef .tc main_arg5) := W4_of_ne m ρ c main_arg5 (by decide)
theorem step_arg5_5 : W5 m ρ c (Proc.devRef .tc main_arg5) = W4 m ρ c (Proc.devRef .tc main_arg5) := by not_written
theorem step_arg5_6 : W6 m ρ c (Proc.devRef .tc main_arg5) = W5 m ρ c (Proc.devRef .tc main_arg5) := W6_of_ne m ρ c main_arg5 (by decide)
theorem step_arg5_7 : W7 m ρ c (Proc.devRef .tc main_arg5) = W6 m ρ c (Proc.devRef .tc main_arg5) := by not_written
theorem step_arg5_8 : W8 m ρ c (Proc.devRef .tc main_arg5) = W7 m ρ c (Proc.devRef .tc main_arg5) := W8_of_ne m ρ c main_arg5 (by decide)
theorem arg5_at4 : W4 m ρ c (Proc.devRef .tc main_arg5) = (m ((c : Thread nD τ).loc main_arg5)) :=
  ((step_arg5_4 m ρ c).trans ((step_arg5_3 m ρ c).trans ((step_arg5_2 m ρ c).trans (step_arg5_1 m ρ c)))).trans rfl
theorem arg5_at6 : W6 m ρ c (Proc.devRef .tc main_arg5) = (m ((c : Thread nD τ).loc main_arg5)) :=
  ((step_arg5_6 m ρ c).trans ((step_arg5_5 m ρ c).trans ((step_arg5_4 m ρ c).trans ((step_arg5_3 m ρ c).trans ((step_arg5_2 m ρ c).trans (step_arg5_1 m ρ c)))))).trans rfl
theorem arg5_at8 : W8 m ρ c (Proc.devRef .tc main_arg5) = (m ((c : Thread nD τ).loc main_arg5)) :=
  ((step_arg5_8 m ρ c).trans ((step_arg5_7 m ρ c).trans ((step_arg5_6 m ρ c).trans ((step_arg5_5 m ρ c).trans ((step_arg5_4 m ρ c).trans ((step_arg5_3 m ρ c).trans ((step_arg5_2 m ρ c).trans (step_arg5_1 m ρ c)))))))).trans rfl

theorem step_arg6_1 : W1 m ρ c (Proc.devRef .tc main_arg6) = W0 m ρ c (Proc.devRef .tc main_arg6) := by not_written
theorem step_arg6_2 : W2 m ρ c (Proc.devRef .tc main_arg6) = W1 m ρ c (Proc.devRef .tc main_arg6) := W2_of_ne m ρ c main_arg6 (by decide)
theorem step_arg6_3 : W3 m ρ c (Proc.devRef .tc main_arg6) = W2 m ρ c (Proc.devRef .tc main_arg6) := by not_written
theorem step_arg6_4 : W4 m ρ c (Proc.devRef .tc main_arg6) = W3 m ρ c (Proc.devRef .tc main_arg6) := W4_of_ne m ρ c main_arg6 (by decide)
theorem step_arg6_5 : W5 m ρ c (Proc.devRef .tc main_arg6) = W4 m ρ c (Proc.devRef .tc main_arg6) := by not_written
theorem step_arg6_6 : W6 m ρ c (Proc.devRef .tc main_arg6) = W5 m ρ c (Proc.devRef .tc main_arg6) := W6_of_ne m ρ c main_arg6 (by decide)
theorem step_arg6_7 : W7 m ρ c (Proc.devRef .tc main_arg6) = W6 m ρ c (Proc.devRef .tc main_arg6) := by not_written
theorem step_arg6_8 : W8 m ρ c (Proc.devRef .tc main_arg6) = W7 m ρ c (Proc.devRef .tc main_arg6) := W8_of_ne m ρ c main_arg6 (by decide)
theorem arg6_at8 : W8 m ρ c (Proc.devRef .tc main_arg6) = (m ((c : Thread nD τ).loc main_arg6)) :=
  ((step_arg6_8 m ρ c).trans ((step_arg6_7 m ρ c).trans ((step_arg6_6 m ρ c).trans ((step_arg6_5 m ρ c).trans ((step_arg6_4 m ρ c).trans ((step_arg6_3 m ρ c).trans ((step_arg6_2 m ρ c).trans (step_arg6_1 m ρ c)))))))).trans rfl

theorem step_arg7_1 : W1 m ρ c (Proc.devRef .tc main_arg7) = W0 m ρ c (Proc.devRef .tc main_arg7) := by not_written
theorem step_arg7_2 : W2 m ρ c (Proc.devRef .tc main_arg7) = W1 m ρ c (Proc.devRef .tc main_arg7) := W2_of_ne m ρ c main_arg7 (by decide)
theorem step_arg7_3 : W3 m ρ c (Proc.devRef .tc main_arg7) = W2 m ρ c (Proc.devRef .tc main_arg7) := by not_written
theorem step_arg7_4 : W4 m ρ c (Proc.devRef .tc main_arg7) = W3 m ρ c (Proc.devRef .tc main_arg7) := W4_of_ne m ρ c main_arg7 (by decide)
theorem step_arg7_5 : W5 m ρ c (Proc.devRef .tc main_arg7) = W4 m ρ c (Proc.devRef .tc main_arg7) := by not_written
theorem step_arg7_6 : W6 m ρ c (Proc.devRef .tc main_arg7) = W5 m ρ c (Proc.devRef .tc main_arg7) := W6_of_ne m ρ c main_arg7 (by decide)
theorem step_arg7_7 : W7 m ρ c (Proc.devRef .tc main_arg7) = W6 m ρ c (Proc.devRef .tc main_arg7) := by not_written
theorem step_arg7_8 : W8 m ρ c (Proc.devRef .tc main_arg7) = W7 m ρ c (Proc.devRef .tc main_arg7) := W8_of_ne m ρ c main_arg7 (by decide)
theorem arg7_at8 : W8 m ρ c (Proc.devRef .tc main_arg7) = (m ((c : Thread nD τ).loc main_arg7)) :=
  ((step_arg7_8 m ρ c).trans ((step_arg7_7 m ρ c).trans ((step_arg7_6 m ρ c).trans ((step_arg7_5 m ρ c).trans ((step_arg7_4 m ρ c).trans ((step_arg7_3 m ρ c).trans ((step_arg7_2 m ρ c).trans (step_arg7_1 m ρ c)))))))).trans rfl

/-! ## The stages -/

/-- After region 0 its result is the input layer of the arguments. -/
theorem feat0 : W2 m ρ c (Proc.devRef .tc main_v29) = stage0 (m ((c : Thread nD τ).loc main_arg0)) (m ((c : Thread nD τ).loc main_arg2)) (m ((c : Thread nD τ).loc main_arg3)) := by
  refine (W2_arr m ρ c 3).trans ((Region0.final (V1 m ρ) c).trans ?_)
  have ha : V1 m ρ c main_arg0 = (m ((c : Thread nD τ).loc main_arg0)) := by
    show StableHlo.after hostOps0 (W0 m ρ c) (Proc.devRef .tc main_arg0) = W0 m ρ c (Proc.devRef .tc main_arg0)
    not_written
  have hw : V1 m ρ c main_v27 = Cert.ReferenceIdeal.Read.val_main_v27 (F := Ideal) (m ((c : Thread nD τ).loc main_arg2)) := stretch0_v27 (W0 m ρ c)
  have hb : V1 m ρ c main_v28 = row128 (m ((c : Thread nD τ).loc main_arg3)) := stretch0_v28 (W0 m ρ c)
  unfold stage0
  rw [ha, hw, hb]

/-- After region 1 its result is the first weight transform of the input layer. -/
theorem feat1 : W4 m ρ c (Proc.devRef .tc main_v33) = stage1 (m ((c : Thread nD τ).loc main_arg0)) (m ((c : Thread nD τ).loc main_arg2)) (m ((c : Thread nD τ).loc main_arg3)) (m ((c : Thread nD τ).loc main_arg4)) := by
  refine (W4_arr m ρ c 2).trans ((Region1.final (V3 m ρ) c).trans ?_)
  have hx : V3 m ρ c main_v29 = stage0 (m ((c : Thread nD τ).loc main_arg0)) (m ((c : Thread nD τ).loc main_arg2)) (m ((c : Thread nD τ).loc main_arg3)) := by
    refine Eq.trans ?_ (feat0 m ρ c)
    show StableHlo.after hostOps1 (W2 m ρ c) (Proc.devRef .tc main_v29) = W2 m ρ c (Proc.devRef .tc main_v29)
    not_written
  have hw : V3 m ρ c main_v32 = Cert.ReferenceIdeal.Read.val_main_v37 (F := Ideal) (m ((c : Thread nD τ).loc main_arg4)) :=
    (stretch1_v32 (W2 m ρ c)).trans (congrArg (Cert.ReferenceIdeal.Read.val_main_v37 (F := Ideal)) (arg4_at2 m ρ c))
  unfold stage1
  rw [hx, hw]

/-- The first aggregation, as region 2 finds it. -/
theorem agg1 : W5 m ρ c (Proc.devRef .tc main_v46) = graphAgg (m ((c : Thread nD τ).loc main_arg1)) (stage1 (m ((c : Thread nD τ).loc main_arg0)) (m ((c : Thread nD τ).loc main_arg2)) (m ((c : Thread nD τ).loc main_arg3)) (m ((c : Thread nD τ).loc main_arg4))) := by
  refine (stretch2_v46 (W4 m ρ c)).trans ?_
  unfold graphAgg
  rw [src_at4, dst_at4, norm_at4, feat1]

/-- After region 2 its result is the second stage. -/
theorem feat2 : W6 m ρ c (Proc.devRef .tc main_v53) = stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Region2.final (V5 m ρ) c).trans ?_)
  have ha : V5 m ρ c main_v46 = graphAgg (m ((c : Thread nD τ).loc main_arg1)) (stage1 (m ((c : Thread nD τ).loc main_arg0)) (m ((c : Thread nD τ).loc main_arg2)) (m ((c : Thread nD τ).loc main_arg3)) (m ((c : Thread nD τ).loc main_arg4))) := agg1 m ρ c
  have hb : V5 m ρ c main_v52 = row128 (Cert.ReferenceIdeal.Read.val_main_v36 (F := Ideal) (m ((c : Thread nD τ).loc main_arg5))) :=
    (stretch2_v52 (W4 m ρ c)).trans (congrArg (fun v => row128 (Cert.ReferenceIdeal.Read.val_main_v36 (F := Ideal) v)) (arg5_at4 m ρ c))
  have hw : V5 m ρ c main_v49 = Cert.ReferenceIdeal.Read.val_main_v60 (F := Ideal) (m ((c : Thread nD τ).loc main_arg4)) :=
    (stretch2_v49 (W4 m ρ c)).trans (congrArg (Cert.ReferenceIdeal.Read.val_main_v60 (F := Ideal)) (arg4_at4 m ρ c))
  unfold stage2
  rw [ha, hb, hw]

/-- The second aggregation, as region 3 finds it. -/
theorem agg2 : W7 m ρ c (Proc.devRef .tc main_v66) = graphAgg (m ((c : Thread nD τ).loc main_arg1)) (stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (stretch3_v66 (W6 m ρ c)).trans ?_
  unfold graphAgg
  rw [src_at6, dst_at6, norm_at6, feat2]

/-- After region 3 its result is the third stage. -/
theorem feat3 : W8 m ρ c (Proc.devRef .tc main_v73) = stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region3.final (V7 m ρ) c).trans ?_)
  have ha : V7 m ρ c main_v66 = graphAgg (m ((c : Thread nD τ).loc main_arg1)) (stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := agg2 m ρ c
  have hb : V7 m ρ c main_v72 = row128 (Cert.ReferenceIdeal.Read.val_main_v59 (F := Ideal) (m ((c : Thread nD τ).loc main_arg5))) :=
    (stretch3_v72 (W6 m ρ c)).trans (congrArg (fun v => row128 (Cert.ReferenceIdeal.Read.val_main_v59 (F := Ideal) v)) (arg5_at6 m ρ c))
  have hw : V7 m ρ c main_v69 = Cert.ReferenceIdeal.Read.val_main_v83 (F := Ideal) (m ((c : Thread nD τ).loc main_arg4)) :=
    (stretch3_v69 (W6 m ρ c)).trans (congrArg (Cert.ReferenceIdeal.Read.val_main_v83 (F := Ideal)) (arg4_at6 m ρ c))
  unfold stage3
  rw [ha, hb, hw]

/-- The third aggregation, as region 4 finds it. -/
theorem agg3 : W9 m ρ c (Proc.devRef .tc main_v86) = graphAgg (m ((c : Thread nD τ).loc main_arg1)) (stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (stretch4_v86 (W8 m ρ c)).trans ?_
  unfold graphAgg
  rw [src_at8, dst_at8, norm_at8, feat3]

/-- The result buffer at the last boundary is the network of the arguments. -/
theorem result_eq : W10 m ρ c (Proc.devRef .tc main_v92) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ((Region4.final (V9 m ρ) c).trans ?_)
  have ha : V9 m ρ c main_v86 = graphAgg (m ((c : Thread nD τ).loc main_arg1)) (stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := agg3 m ρ c
  have hb : V9 m ρ c main_v90 = row128 (Cert.ReferenceIdeal.Read.val_main_v82 (F := Ideal) (m ((c : Thread nD τ).loc main_arg5))) :=
    (stretch4_v90 (W8 m ρ c)).trans (congrArg (fun v => row128 (Cert.ReferenceIdeal.Read.val_main_v82 (F := Ideal) v)) (arg5_at8 m ρ c))
  have hw : V9 m ρ c main_v87 = Cert.ReferenceIdeal.Read.val_main_v102 (F := Ideal) (m ((c : Thread nD τ).loc main_arg6)) :=
    (stretch4_v87 (W8 m ρ c)).trans (congrArg (Cert.ReferenceIdeal.Read.val_main_v102 (F := Ideal)) (arg6_at8 m ρ c))
  have hc : V9 m ρ c main_v91 = row40 (m ((c : Thread nD τ).loc main_arg7)) :=
    (stretch4_v91 (W8 m ρ c)).trans (congrArg row40 (arg7_at8 m ρ c))
  unfold network
  rw [ha, hb, hw, hc]

end Cert.KernelIdeal.Chain

end
-- ==== Proof.LibHostDot.lean ====
/-
  A plain matrix product computed on the host, read at an index, at the extended reals.

  For a rank-2 product `[M, K] · [K, N] → [M, N]` (one contracted axis: the left operand's columns against the right
  operand's rows, no batch axis) the entry at `(p, e)` is the finite sum over the contracted coordinate `k` of
  `lhs (p, k) · rhs (k, e)` — the same sum a kernel's product into a zero block has there. The product's dimension
  record enters only through four coordinate facts about its operand index maps (each a one-line computation for a
  literal record), so the lemma serves any such record at any extents.
-/
import Idealize.ShloMosaic.Lib.ValueIdx
import Idealize.ShloMosaic.PureOps.Ideal.Laws

noncomputable section

namespace Cert.LibHostDot

open Idealize.ShloMosaic Idealize.ShloMosaic.ValueIdx

/-- The host's `[M, K] · [K, N]`, at `(p, e)`: `∑ₖ lhs (p, k) · rhs (k, e)`. The hypotheses say that the record
    contracts ONE axis of extent `K`, that the left operand is read at (output row, contracted coordinate) and the right
    operand at (contracted coordinate, output column). -/
theorem dotGeneral_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    Host.dotGeneral D none lhs rhs (ix2 p e) = ∑ k : Fin K, lhs (ix2 p k) * rhs (ix2 k e) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibHostDot

end
-- ==== Proof.RefValue.lean ====
/-
  The reference program's result as the network of its arguments.

  The reference computes every layer on the host: a product by `dot_general`, a bias spread over the rows by two
  broadcasts, a rectification as the maximum with a zero array, and the same aggregation operations as the kernel
  program. Read entry by entry over the extended reals, a host product is the finite sum of products, the spread
  bias at `(r, e)` is entry `e` of the bias vector — which is also entry `(0, e)` of the vector laid out as one
  row —, and the zero array holds the zero word. So each stage of the reference is the corresponding stage of
  `Network.network`, and its result is the network of the eight arguments.
-/
import proofs.«127997_j10531259810642_1_alg».proof.Proof.Network
import proofs.«127997_j10531259810642_1_alg».proof.Proof.LibHostDot

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.LibDenseLayers Cert.Network

/-! ## Host operations read entry by entry -/

/-- The host's product `[100000, 512] · [512, 128]` is the matrix product entry by entry. -/
theorem dot_in (l : FVec Ideal S100000x512 .f32) (r : FVec Ideal S512x128 .f32) :
    Host.dotGeneral dot_S100000x512_S512x128_S100000x128_1_0_0_1_n_n none l r = prod l r := by
  funext i
  obtain ⟨p, e, rfl⟩ : ∃ (p : Fin 100000) (e : Fin 128), i = ix2 p e := ⟨i 0, i 1, eq_ix2 i⟩
  exact Cert.LibHostDot.dotGeneral_apply dot_S100000x512_S512x128_S100000x128_1_0_0_1_n_n rfl rfl lhs_main_v28_0 lhs_main_v28_1 rhs_main_v28_0 rhs_main_v28_1 l r p e

/-- The host's product `[100000, 128] · [128, 128]` is the matrix product entry by entry. -/
theorem dot_hid (l : FVec Ideal S100000x128 .f32) (r : FVec Ideal S128x128 .f32) :
    Host.dotGeneral dot_S100000x128_S128x128_S100000x128_1_0_0_1_n_n none l r = prod l r := by
  funext i
  obtain ⟨p, e, rfl⟩ : ∃ (p : Fin 100000) (e : Fin 128), i = ix2 p e := ⟨i 0, i 1, eq_ix2 i⟩
  exact Cert.LibHostDot.dotGeneral_apply dot_S100000x128_S128x128_S100000x128_1_0_0_1_n_n rfl rfl lhs_main_v38_0 lhs_main_v38_1 rhs_main_v38_0 rhs_main_v38_1 l r p e

/-- The host's product `[100000, 128] · [128, 40]` is the matrix product entry by entry. -/
theorem dot_out (l : FVec Ideal S100000x128 .f32) (r : FVec Ideal S128x40 .f32) :
    Host.dotGeneral dot_S100000x128_S128x40_S100000x40_1_0_0_1_n_n none l r = prod l r := by
  funext i
  obtain ⟨p, e, rfl⟩ : ∃ (p : Fin 100000) (e : Fin 40), i = ix2 p e := ⟨i 0, i 1, eq_ix2 i⟩
  exact Cert.LibHostDot.dotGeneral_apply dot_S100000x128_S128x40_S100000x40_1_0_0_1_n_n rfl rfl lhs_main_v103_0 lhs_main_v103_1 rhs_main_v103_0 rhs_main_v103_1 l r p e

/-- A bias vector spread over the rows reads, at `(r, e)`, entry `(0, e)` of the vector laid out as one row. -/
theorem bias128_apply (v : FVec Ideal S128 .f32) (r : Fin 100000) (e : Fin 128) :
    val_main_v30 (F := Ideal) v (ix2 r e) = row128 v (ix2 (0 : Fin 1) e) := by
  rw [val_main_v30_apply, val_main_v29_apply]
  unfold row128
  rw [shapeCast_a_1a_apply]
  exact congrArg v (funext fun a => match a with | ⟨0, _⟩ => rfl)

/-- The same for the output bias of 40 entries. -/
theorem bias40_apply (v : FVec Ideal S40 .f32) (r : Fin 100000) (e : Fin 40) :
    val_main_v105 (F := Ideal) v (ix2 r e) = row40 v (ix2 (0 : Fin 1) e) := by
  rw [val_main_v105_apply, val_main_v104_apply]
  unfold row40
  rw [shapeCast_a_1a_apply]
  exact congrArg v (funext fun a => match a with | ⟨0, _⟩ => rfl)

/-- The rectification's zero array holds the zero word. -/
theorem zeros_apply (i : S100000x128.Idx) : val_main_call0_v0 (F := Ideal) i = (Ideal.ofBits .f32 0x00000000#32) := by
  rw [val_main_call0_v0_apply, val_main_call0_cst_apply]
  rfl

/-- "Add the bias, rectify" on the host is `relu (a + b)`. -/
theorem relu_bias_host (a : FVec Ideal S100000x128 .f32) (bv : FVec Ideal S128 .f32) :
    maximumf (addf a (val_main_v30 (F := Ideal) bv)) (val_main_call0_v0 (F := Ideal)) = relu (addRow a (row128 bv)) := by
  funext i
  obtain ⟨p, e, rfl⟩ : ∃ (p : Fin 100000) (e : Fin 128), i = ix2 p e := ⟨i 0, i 1, eq_ix2 i⟩
  show max (a (ix2 p e) + val_main_v30 (F := Ideal) bv (ix2 p e)) (val_main_call0_v0 (F := Ideal) (ix2 p e))
    = max (a (ix2 p e) + row128 bv (ix2 (0 : Fin 1) e)) (Ideal.ofBits .f32 0x00000000#32)
  rw [bias128_apply, zeros_apply]

/-- The input layer on the host. -/
theorem input_host (x : FVec Ideal S100000x512 .f32) (w : FVec Ideal S512x128 .f32) (bv : FVec Ideal S128 .f32) :
    maximumf (addf (Host.dotGeneral dot_S100000x512_S512x128_S100000x128_1_0_0_1_n_n none x w) (val_main_v30 (F := Ideal) bv)) (val_main_call0_v0 (F := Ideal))
      = layerIn x w (row128 bv) := by
  rw [dot_in, relu_bias_host]
  rfl

/-- A hidden layer on the host. -/
theorem hidden_host (a : FVec Ideal S100000x128 .f32) (bv : FVec Ideal S128 .f32) (w : FVec Ideal S128x128 .f32) :
    Host.dotGeneral dot_S100000x128_S128x128_S100000x128_1_0_0_1_n_n none (maximumf (addf a (val_main_v30 (F := Ideal) bv)) (val_main_call0_v0 (F := Ideal))) w
      = layerHidden a (row128 bv) w := by
  rw [dot_hid, relu_bias_host]
  rfl

/-- The output layer on the host. -/
theorem out_host (a : FVec Ideal S100000x128 .f32) (bv : FVec Ideal S128 .f32) (w : FVec Ideal S128x40 .f32) (cv : FVec Ideal S40 .f32) :
    addf (Host.dotGeneral dot_S100000x128_S128x40_S100000x40_1_0_0_1_n_n none (maximumf (addf a (val_main_v30 (F := Ideal) bv)) (val_main_call0_v0 (F := Ideal))) w)
        (val_main_v105 (F := Ideal) cv)
      = layerOut a (row128 bv) w (row40 cv) := by
  rw [dot_out, relu_bias_host]
  funext i
  obtain ⟨p, e, rfl⟩ : ∃ (p : Fin 100000) (e : Fin 40), i = ix2 p e := ⟨i 0, i 1, eq_ix2 i⟩
  show prod (relu (addRow a (row128 bv))) w (ix2 p e) + val_main_v105 (F := Ideal) cv (ix2 p e)
    = prod (relu (addRow a (row128 bv))) w (ix2 p e) + row40 cv (ix2 (0 : Fin 1) e)
  rw [bias40_apply]

/-! ## The reference's stages are the network's -/

theorem ref_stage0 (x0 : FVec Ideal S100000x512 .f32) (x2 : FVec Ideal S128x512 .f32) (x3 : FVec Ideal S128 .f32) :
    val_main_v32 (F := Ideal) x0 x2 x3 = stage0 x0 x2 x3 :=
  input_host x0 (val_main_v27 (F := Ideal) x2) x3

theorem ref_stage1 (x0 : FVec Ideal S100000x512 .f32) (x2 : FVec Ideal S128x512 .f32) (x3 : FVec Ideal S128 .f32) (x4 : FVec Ideal S3x128x128 .f32) :
    val_main_v38 (F := Ideal) x0 x2 x3 x4 = stage1 x0 x2 x3 x4 :=
  (dot_hid (val_main_v32 (F := Ideal) x0 x2 x3) (val_main_v37 (F := Ideal) x4)).trans
    (congrArg (fun h => prod h (val_main_v37 (F := Ideal) x4)) (ref_stage0 x0 x2 x3))

/-- The reference's first aggregation is, operation for operation, the kernel program's. -/
theorem ref_agg1 (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) :
    val_main_v51 (F := Ideal) x0 x1 x2 x3 x4 = graphAgg x1 (stage1 x0 x2 x3 x4) :=
  (rfl : val_main_v51 (F := Ideal) x0 x1 x2 x3 x4 = graphAgg x1 (val_main_v38 (F := Ideal) x0 x2 x3 x4)).trans
    (congrArg (graphAgg x1) (ref_stage1 x0 x2 x3 x4))

theorem ref_stage2 (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) (x5 : FVec Ideal S3x128 .f32) :
    val_main_v61 (F := Ideal) x0 x1 x2 x3 x4 x5 = stage2 x0 x1 x2 x3 x4 x5 :=
  (hidden_host (val_main_v51 (F := Ideal) x0 x1 x2 x3 x4) (val_main_v36 (F := Ideal) x5) (val_main_v60 (F := Ideal) x4)).trans
    (congrArg (fun a => layerHidden a (row128 (val_main_v36 (F := Ideal) x5)) (val_main_v60 (F := Ideal) x4)) (ref_agg1 x0 x1 x2 x3 x4))

theorem ref_agg2 (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) (x5 : FVec Ideal S3x128 .f32) :
    val_main_v74 (F := Ideal) x0 x1 x2 x3 x4 x5 = graphAgg x1 (stage2 x0 x1 x2 x3 x4 x5) :=
  (rfl : val_main_v74 (F := Ideal) x0 x1 x2 x3 x4 x5 = graphAgg x1 (val_main_v61 (F := Ideal) x0 x1 x2 x3 x4 x5)).trans
    (congrArg (graphAgg x1) (ref_stage2 x0 x1 x2 x3 x4 x5))

theorem ref_stage3 (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) (x5 : FVec Ideal S3x128 .f32) :
    val_main_v84 (F := Ideal) x0 x1 x2 x3 x4 x5 = stage3 x0 x1 x2 x3 x4 x5 :=
  (hidden_host (val_main_v74 (F := Ideal) x0 x1 x2 x3 x4 x5) (val_main_v59 (F := Ideal) x5) (val_main_v83 (F := Ideal) x4)).trans
    (congrArg (fun a => layerHidden a (row128 (val_main_v59 (F := Ideal) x5)) (val_main_v83 (F := Ideal) x4)) (ref_agg2 x0 x1 x2 x3 x4 x5))

theorem ref_agg3 (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) (x5 : FVec Ideal S3x128 .f32) :
    val_main_v97 (F := Ideal) x0 x1 x2 x3 x4 x5 = graphAgg x1 (stage3 x0 x1 x2 x3 x4 x5) :=
  (rfl : val_main_v97 (F := Ideal) x0 x1 x2 x3 x4 x5 = graphAgg x1 (val_main_v84 (F := Ideal) x0 x1 x2 x3 x4 x5)).trans
    (congrArg (graphAgg x1) (ref_stage3 x0 x1 x2 x3 x4 x5))

/-- The reference's result is the network of its arguments. -/
theorem ref_network (x0 : FVec Ideal S100000x512 .f32) (x1 : (⟨S2x1600000, .i32⟩ : BufTy).Contents (Elt Ideal)) (x2 : FVec Ideal S128x512 .f32)
    (x3 : FVec Ideal S128 .f32) (x4 : FVec Ideal S3x128x128 .f32) (x5 : FVec Ideal S3x128 .f32)
    (x6 : FVec Ideal S40x128 .f32) (x7 : FVec Ideal S40 .f32) :
    val_main_v106 (F := Ideal) x0 x1 x2 x3 x4 x5 x6 x7 = network x0 x1 x2 x3 x4 x5 x6 x7 :=
  (out_host (val_main_v97 (F := Ideal) x0 x1 x2 x3 x4 x5) (val_main_v82 (F := Ideal) x5) (val_main_v102 (F := Ideal) x6) x7).trans
    (congrArg (fun a => layerOut a (row128 (val_main_v82 (F := Ideal) x5)) (val_main_v102 (F := Ideal) x6) (row40 x7))
      (ref_agg3 x0 x1 x2 x3 x4 x5))

end Cert.ReferenceIdeal.RefValue

end
-- ==== Proof.lean ====
/-
  The proof of `Cert.Claim`: a three-layer graph convolution network computed by five tiled kernel regions among
  host operations, against the same network computed on the host.

  Both programs compute the same sequence of stages: the graph quantities from the edge list; the input layer
  `relu (x · W0ᵀ + b0)`; then, three times, a weight transform, the aggregation over the graph, the layer's bias and
  a rectification; and the output layer. The kernel program only cuts the sequence differently (a region ends after
  each weight transform) and computes each dense layer block by block, 2000 rows at a time, with its operands cast to
  a narrower float format first. Over the extended reals a format change is the identity and a product tile by tile
  is the same finite sum of products, so both results are one function of the arguments, `Network.network`
  (Proof/Network.lean): the kernel program's by Proof/KernelRun.lean and Proof/KernelValue.lean, the reference's by its
  run and Proof/RefValue.lean. No step uses that the inputs are finite. The three frames are the programs' runs with
  the results forgotten, and the idealization rewrote nothing, so `preserves` is trivial.
-/
import proofs.«127997_j10531259810642_1_alg».proof.Defs
import proofs.«127997_j10531259810642_1_alg».proof.Proof.Gen.Kernel
import proofs.«127997_j10531259810642_1_alg».proof.Proof.Gen.Kernel.Skeleton
import proofs.«127997_j10531259810642_1_alg».proof.Proof.Gen.Kernel.Launch
import proofs.«127997_j10531259810642_1_alg».proof.Proof.Gen.Kernel.Points
import proofs.«127997_j10531259810642_1_alg».proof.Proof.Gen.Kernel.Frame
import proofs.«127997_j10531259810642_1_alg».proof.Proof.Gen.KernelIdeal
import proofs.«127997_j10531259810642_1_alg».proof.Proof.Gen.KernelIdeal.Skeleton
import proofs.«127997_j10531259810642_1_alg».proof.Proof.Gen.KernelIdeal.Launch
import proofs.«127997_j10531259810642_1_alg».proof.Proof.Gen.KernelIdeal.Points
import proofs.«127997_j10531259810642_1_alg».proof.Proof.Gen.KernelIdeal.Frame
import proofs.«127997_j10531259810642_1_alg».proof.Proof.Gen.ReferenceIdeal
import proofs.«127997_j10531259810642_1_alg».proof.Proof.Gen.ReferenceIdeal.Run
import proofs.«127997_j10531259810642_1_alg».proof.Proof.Gen.ReferenceIdeal.Read
import proofs.«127997_j10531259810642_1_alg».proof.Proof.Gen.Pre_finite_inputs
import proofs.«127997_j10531259810642_1_alg».proof.Proof.KernelRun
import proofs.«127997_j10531259810642_1_alg».proof.Proof.KernelValue
import proofs.«127997_j10531259810642_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v106_eq, Cert.ReferenceIdeal.RefValue.ref_network, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
